-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v34_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v34_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x75 : Shape := ⟨2, ![50000, 75]⟩
abbrev S1000000x14 : Shape := ⟨2, ![1000000, 14]⟩
abbrev S1000000 : Shape := ⟨1, ![1000000]⟩
abbrev S1000000x2 : Shape := ⟨2, ![1000000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S_ : Shape := ⟨0, ![]⟩

class Facts : Prop where
  bcast_S_S50000x75 : S_.BroadcastsInDim S50000x75 (![] : Fin 0 → Fin S50000x75.rank)
  reducesTo_S50000x75_S_d0_1 : S50000x75.ReducesTo [0, 1] S_
  h_S_ : 0 < S_.numel
  bcast_S_S1000000x14 : S_.BroadcastsInDim S1000000x14 (![] : Fin 0 → Fin S1000000x14.rank)
  reducesTo_S1000000x14_S_d0_1 : S1000000x14.ReducesTo [0, 1] S_
  bcast_S_S75x50 : S_.BroadcastsInDim S75x50 (![] : Fin 0 → Fin S75x50.rank)
  reducesTo_S75x50_S_d0_1 : S75x50.ReducesTo [0, 1] S_
  bcast_S_S50 : S_.BroadcastsInDim S50 (![] : Fin 0 → Fin S50.rank)
  reducesTo_S50_S_d0 : S50.ReducesTo [0] S_
  bcast_S_S14x50 : S_.BroadcastsInDim S14x50 (![] : Fin 0 → Fin S14x50.rank)
  reducesTo_S14x50_S_d0_1 : S14x50.ReducesTo [0, 1] S_
  bcast_S_S100x50 : S_.BroadcastsInDim S100x50 (![] : Fin 0 → Fin S100x50.rank)
  reducesTo_S100x50_S_d0_1 : S100x50.ReducesTo [0, 1] S_
  bcast_S_S150x50 : S_.BroadcastsInDim S150x50 (![] : Fin 0 → Fin S150x50.rank)
  reducesTo_S150x50_S_d0_1 : S150x50.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S50 .f32) (main_arg14 : FVec F S100x50 .f32) (main_arg15 : FVec F S50 .f32) (main_v48 : IVec S_ 1) (main_v49 : FVec F S14x50 .f32) (main_v50 : FVec F S14x50 .f32) : IVec S_ 1 :=
  let main_v51 : IVec S14x50 1 := cmpf .olt main_v49 main_v50
  let main_c_19 : IVec S_ 1 := constantI S_ 1 1#1
  let main_v52 : IVec S_ 1 := (fun x v => Host.reduce IntOp.andi x v reducesTo_S14x50_S_d0_1 h_S_) main_v51 main_c_19
  let main_v53 : IVec S_ 1 := andi main_v48 main_v52
  let main_v54 : FVec F S50 .f32 := Host.absf main_arg13
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S100x50 .f32 := Host.absf main_arg14
  let main_cst_22 : FVec F S_ .f32 := constant S_ .f32 0x7F800000#32
  let main_v60 : FVec F S100x50 .f32 := broadcastInDim S100x50 ![] bcast_S_S100x50 main_cst_22
  let main_v61 : IVec S100x50 1 := cmpf .olt main_v59 main_v60
  let main_c_23 : IVec S_ 1 := constantI S_ 1 1#1
  let main_v62 : IVec S_ 1 := (fun x v => Host.reduce IntOp.andi x v reducesTo_S100x50_S_d0_1 h_S_) main_v61 main_c_23
  let main_v63 : IVec S_ 1 := andi main_v58 main_v62
  let main_v64 : FVec F S50 .f32 := Host.absf main_arg15
  let main_cst_24 : FVec F S_ .f32 := constant S_ .f32 0x7F800000#32
  let main_v65 : FVec F S50 .f32 := broadcastInDim S50 ![] bcast_S_S50 main_cst_24
  let main_v66 : IVec S50 1 := cmpf .olt main_v64 main_v65
  let main_c_25 : IVec S_ 1 := constantI S_ 1 1#1
  let main_v67 : IVec S_ 1 := (fun x v => Host.reduce IntOp.andi x v reducesTo_S50_S_d0 h_S_) main_v66 main_c_25
  fn_part4 (F := F) main_v63 main_v67

def fn_part2 {F : FTy → Type} [FloatOps F] (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v33 : IVec S_ 1) : IVec S_ 1 :=
  let main_v34 : FVec F S50 .f32 := Host.absf main_arg9
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S150x50 .f32 := Host.absf main_arg10
  let main_cst_14 : FVec F S_ .f32 := constant S_ .f32 0x7F800000#32
  let main_v40 : FVec F S150x50 .f32 := broadcastInDim S150x50 ![] bcast_S_S150x50 main_cst_14
  let main_v41 : IVec S150x50 1 := cmpf .olt main_v39 main_v40
  let main_c_15 : IVec S_ 1 := constantI S_ 1 1#1
  let main_v42 : IVec S_ 1 := (fun x v => Host.reduce IntOp.andi x v reducesTo_S150x50_S_d0_1 h_S_) main_v41 main_c_15
  let main_v43 : IVec S_ 1 := andi main_v38 main_v42
  let main_v44 : FVec F S50 .f32 := Host.absf main_arg11
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S14x50 .f32 := Host.absf main_arg12
  let main_cst_18 : FVec F S_ .f32 := constant S_ .f32 0x7F800000#32
  let main_v50 : FVec F S14x50 .f32 := broadcastInDim S14x50 ![] bcast_S_S14x50 main_cst_18
  fn_part3 (F := F) main_arg13 main_arg14 main_arg15 main_v48 main_v49 main_v50

def fn_part1 {F : FTy → Type} [FloatOps F] (main_arg6 : FVec F S14x50 .f32) (main_arg7 : FVec F S50 .f32) (main_arg8 : FVec F S100x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S14x50 .f32 := Host.absf main_arg6
  let main_cst_6 : FVec F S_ .f32 := constant S_ .f32 0x7F800000#32
  let main_v20 : FVec F S14x50 .f32 := broadcastInDim S14x50 ![] bcast_S_S14x50 main_cst_6
  let main_v21 : IVec S14x50 1 := cmpf .olt main_v19 main_v20
  let main_c_7 : IVec S_ 1 := constantI S_ 1 1#1
  let main_v22 : IVec S_ 1 := (fun x v => Host.reduce IntOp.andi x v reducesTo_S14x50_S_d0_1 h_S_) main_v21 main_c_7
  let main_v23 : IVec S_ 1 := andi main_v18 main_v22
  let main_v24 : FVec F S50 .f32 := Host.absf main_arg7
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S100x50 .f32 := Host.absf main_arg8
  let main_cst_10 : FVec F S_ .f32 := constant S_ .f32 0x7F800000#32
  let main_v30 : FVec F S100x50 .f32 := broadcastInDim S100x50 ![] bcast_S_S100x50 main_cst_10
  let main_v31 : IVec S100x50 1 := cmpf .olt main_v29 main_v30
  let main_c_11 : IVec S_ 1 := constantI S_ 1 1#1
  let main_v32 : IVec S_ 1 := (fun x v => Host.reduce IntOp.andi x v reducesTo_S100x50_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x75 .f32) (main_arg1 : FVec F S1000000x14 .f32) (main_arg2 : IVec S1000000 32) (main_arg3 : IVec S1000000x2 32) (main_arg4 : FVec F S75x50 .f32) (main_arg5 : FVec F S50 .f32) (main_arg6 : FVec F S14x50 .f32) (main_arg7 : FVec F S50 .f32) (main_arg8 : FVec F S100x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) : IVec S_ 1 :=
  let main_v0 : FVec F S50000x75 .f32 := Host.absf main_arg0
  let main_cst : FVec F S_ .f32 := constant S_ .f32 0x7F800000#32
  let main_v1 : FVec F S50000x75 .f32 := broadcastInDim S50000x75 ![] bcast_S_S50000x75 main_cst
  let main_v2 : IVec S50000x75 1 := cmpf .olt main_v0 main_v1
  let main_c : IVec S_ 1 := constantI S_ 1 1#1
  let main_v3 : IVec S_ 1 := (fun x v => Host.reduce IntOp.andi x v reducesTo_S50000x75_S_d0_1 h_S_) main_v2 main_c
  let main_v4 : FVec F S1000000x14 .f32 := Host.absf main_arg1
  let main_cst_0 : FVec F S_ .f32 := constant S_ .f32 0x7F800000#32
  let main_v5 : FVec F S1000000x14 .f32 := broadcastInDim S1000000x14 ![] bcast_S_S1000000x14 main_cst_0
  let main_v6 : IVec S1000000x14 1 := cmpf .olt main_v4 main_v5
  let main_c_1 : IVec S_ 1 := constantI S_ 1 1#1
  let main_v7 : IVec S_ 1 := (fun x v => Host.reduce IntOp.andi x v reducesTo_S1000000x14_S_d0_1 h_S_) main_v6 main_c_1
  let main_v8 : IVec S_ 1 := andi main_v3 main_v7
  let main_v9 : FVec F S75x50 .f32 := Host.absf main_arg4
  let main_cst_2 : FVec F S_ .f32 := constant S_ .f32 0x7F800000#32
  let main_v10 : FVec F S75x50 .f32 := broadcastInDim S75x50 ![] bcast_S_S75x50 main_cst_2
  let main_v11 : IVec S75x50 1 := cmpf .olt main_v9 main_v10
  let main_c_3 : IVec S_ 1 := constantI S_ 1 1#1
  let main_v12 : IVec S_ 1 := (fun x v => Host.reduce IntOp.andi x v reducesTo_S75x50_S_d0_1 h_S_) main_v11 main_c_3
  let main_v13 : IVec S_ 1 := andi main_v8 main_v12
  let main_v14 : FVec F S50 .f32 := Host.absf main_arg5
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x75 : Shape := ⟨2, ![50000, 75]⟩
abbrev S1000000x14 : Shape := ⟨2, ![1000000, 14]⟩
abbrev S1000000 : Shape := ⟨1, ![1000000]⟩
abbrev S1000000x2 : Shape := ⟨2, ![1000000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S1000000x1 : Shape := ⟨2, ![1000000, 1]⟩
abbrev S_ : Shape := ⟨0, ![]⟩
abbrev S1000000x75 : Shape := ⟨2, ![1000000, 75]⟩
abbrev S1x50 : Shape := ⟨2, ![1, 50]⟩
abbrev S1000000x50 : Shape := ⟨2, ![1000000, 50]⟩
abbrev S5000x14 : Shape := ⟨2, ![5000, 14]⟩
abbrev S5000x75 : Shape := ⟨2, ![5000, 75]⟩
abbrev S5000x50 : Shape := ⟨2, ![5000, 50]⟩
abbrev S5000x100 : Shape := ⟨2, ![5000, 100]⟩
abbrev S50000x50 : Shape := ⟨2, ![50000, 50]⟩

abbrev nBuf : Space → Nat
  | .hbm => 62
  | .vmem => 29
  | .smem => 0
  | _ => 0

abbrev bufTy : (tb : Table) → Fin (tcTables nBuf tb) → BufTy
  | .hbm, ⟨0, _⟩ => ⟨S50000x75, .f32⟩
  | .hbm, ⟨1, _⟩ => ⟨S1000000x14, .f32⟩
  | .hbm, ⟨2, _⟩ => ⟨S1000000, .i32⟩
  | .hbm, ⟨3, _⟩ => ⟨S1000000x2, .i32⟩
  | .hbm, ⟨4, _⟩ => ⟨S75x50, .f32⟩
  | .hbm, ⟨5, _⟩ => ⟨S50, .f32⟩
  | .hbm, ⟨6, _⟩ => ⟨S14x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S50000x75, .bf16⟩
  | .hbm, ⟨17, _⟩ => ⟨S1000000x1, .i32⟩
  | .hbm, ⟨18, _⟩ => ⟨S1000000, .i32⟩
  | .hbm, ⟨19, _⟩ => ⟨S1000000x1, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x75, .bf16⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x75, .bf16⟩
  | .hbm, ⟨39, _⟩ => ⟨S75x50, .f32⟩
  | .hbm, ⟨40, _⟩ => ⟨S75x50, .f32⟩
  | .hbm, ⟨41, _⟩ => ⟨S14x50, .bf16⟩
  | .hbm, ⟨42, _⟩ => ⟨S14x50, .bf16⟩
  | .hbm, ⟨43, _⟩ => ⟨S75x50, .bf16⟩
  | .hbm, ⟨44, _⟩ => ⟨S75x50, .bf16⟩
  | .hbm, ⟨45, _⟩ => ⟨S100x50, .bf16⟩
  | .hbm, ⟨46, _⟩ => ⟨S75x50, .bf16⟩
  | .hbm, ⟨47, _⟩ => ⟨S100x50, .bf16⟩
  | .hbm, ⟨48, _⟩ => ⟨S1x50, .f32⟩
  | .hbm, ⟨49, _⟩ => ⟨S1x50, .f32⟩
  | .hbm, ⟨50, _⟩ => ⟨S1x50, .f32⟩
  | .hbm, ⟨51, _⟩ => ⟨S1x50, .f32⟩
  | .hbm, ⟨52, _⟩ => ⟨S1x50, .f32⟩
  | .hbm, ⟨53, _⟩ => ⟨S1x50, .f32⟩
  | .hbm, ⟨54, _⟩ => ⟨S1000000x50, .f32⟩
  | .hbm, ⟨55, _⟩ => ⟨S1000000x50, .bf16⟩
  | .hbm, ⟨56, _⟩ => ⟨S1000000x50, .f32⟩
  | .hbm, ⟨57, _⟩ => ⟨S_, .f32⟩
  | .hbm, ⟨58, _⟩ => ⟨S50000x50, .f32⟩
  | .hbm, ⟨59, _⟩ => ⟨S1000000x1, .i32⟩
  | .hbm, ⟨60, _⟩ => ⟨S50000x50, .f32⟩
  | .hbm, ⟨61, _⟩ => ⟨S50000x50, .f32⟩
  | .local _ .vmem, ⟨0, _⟩ => ⟨S5000x14, .f32⟩
  | .local _ .vmem, ⟨1, _⟩ => ⟨S5000x14, .f32⟩
  | .local _ .vmem, ⟨2, _⟩ => ⟨S5000x75, .bf16⟩
  | .local _ .vmem, ⟨3, _⟩ => ⟨S5000x75, .bf16⟩
  | .local _ .vmem, ⟨4, _⟩ => ⟨S5000x75, .bf16⟩
  | .local _ .vmem, ⟨5, _⟩ => ⟨S5000x75, .bf16⟩
  | .local _ .vmem, ⟨6, _⟩ => ⟨S14x50, .bf16⟩
  | .local _ .vmem, ⟨7, _⟩ => ⟨S1x50, .f32⟩
  | .local _ .vmem, ⟨8, _⟩ => ⟨S14x50, .bf16⟩
  | .local _ .vmem, ⟨9, _⟩ => ⟨S1x50, .f32⟩
  | .local _ .vmem, ⟨10, _⟩ => ⟨S75x50, .bf16⟩
  | .local _ .vmem, ⟨11, _⟩ => ⟨S75x50, .bf16⟩
  | .local _ .vmem, ⟨12, _⟩ => ⟨S1x50, .f32⟩
  | .local _ .vmem, ⟨13, _⟩ => ⟨S100x50, .bf16⟩
  | .local _ .vmem, ⟨14, _⟩ => ⟨S1x50, .f32⟩
  | .local _ .vmem, ⟨15, _⟩ => ⟨S5000x50, .f32⟩
  | .local _ .vmem, ⟨16, _⟩ => ⟨S5000x50, .f32⟩
  | .local _ .vmem, ⟨17, _⟩ => ⟨S5000x50, .bf16⟩
  | .local _ .vmem, ⟨18, _⟩ => ⟨S5000x50, .bf16⟩
  | .local _ .vmem, ⟨19, _⟩ => ⟨S5000x75, .f32⟩
  | .local _ .vmem, ⟨20, _⟩ => ⟨S5000x75, .f32⟩
  | .local _ .vmem, ⟨21, _⟩ => ⟨S5000x50, .f32⟩
  | .local _ .vmem, ⟨22, _⟩ => ⟨S5000x50, .f32⟩
  | .local _ .vmem, ⟨23, _⟩ => ⟨S75x50, .bf16⟩
  | .local _ .vmem, ⟨24, _⟩ => ⟨S1x50, .f32⟩
  | .local _ .vmem, ⟨25, _⟩ => ⟨S100x50, .bf16⟩
  | .local _ .vmem, ⟨26, _⟩ => ⟨S1x50, .f32⟩
  | .local _ .vmem, ⟨27, _⟩ => ⟨S5000x50, .f32⟩
  | .local _ .vmem, ⟨28, _⟩ => ⟨S5000x50, .f32⟩
  | _, _ => ⟨S50000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x75 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x75 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S14x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S14x50 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S75x50 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S75x50 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100x50 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S5000x50 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5000x50 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x75 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S75x50 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x50 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x50 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S150x50_S75x50_0_0 : S150x50.Slices ![0, 0] S75x50
  slices_S150x50_S75x50_75_0 : S150x50.Slices ![75, 0] S75x50
  shapeCasts_S50_S1x50 : S50.ShapeCasts S1x50
  inb_S5000x14_S5000x14_0_0 : ∀ a, (![0, 0] : Fin 2 → Nat) a + S5000x14.size a ≤ S5000x14.size a
  h_S5000x14 : 0 < S5000x14.numel
  inb_S5000x75_S5000x75_0_0 : ∀ a, (![0, 0] : Fin 2 → Nat) a + S5000x75.size a ≤ S5000x75.size a
  h_S5000x75 : 0 < S5000x75.numel
  shapeCasts_S5000x75_S5000x75 : S5000x75.ShapeCasts S5000x75
  inb_S14x50_S14x50_0_0 : ∀ a, (![0, 0] : Fin 2 → Nat) a + S14x50.size a ≤ S14x50.size a
  h_S14x50 : 0 < S14x50.numel
  shapeCasts_S14x50_S14x50 : S14x50.ShapeCasts S14x50
  inb_S75x50_S75x50_0_0 : ∀ a, (![0, 0] : Fin 2 → Nat) a + S75x50.size a ≤ S75x50.size a
  h_S75x50 : 0 < S75x50.numel
  shapeCasts_S75x50_S75x50 : S75x50.ShapeCasts S75x50
  inb_S100x50_S100x50_0_0 : ∀ a, (![0, 0] : Fin 2 → Nat) a + S100x50.size a ≤ S100x50.size a
  h_S100x50 : 0 < S100x50.numel
  shapeCasts_S100x50_S100x50 : S100x50.ShapeCasts S100x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  concatenates_S5000x50_S5000x50_S5000x100_d1 : Shape.Concatenates [S5000x50, S5000x50] S5000x100 1
  inb_S5000x50_S5000x50_0_0 : ∀ a, (![0, 0] : Fin 2 → Nat) a + S5000x50.size a ≤ S5000x50.size a
  h_S5000x50 : 0 < S5000x50.numel
  packedbf16_S5000x50_S5000x50_0_0 : (Rect.unit (s := S5000x50) ![0, 0] S5000x50.size inb_S5000x50_S5000x50_0_0).PackedRows (EltTy.packing .bf16)
  bcast_S_S50000x50 : S_.BroadcastsInDim S50000x50 (![] : Fin 0 → Fin S50000x50.rank)
  shapeCasts_S5000x50_S5000x50 : S5000x50.ShapeCasts S5000x50
  gather_S50000x75_S1000000x1_S1000000x75_1_0_n_n_0_1_175_wf : GatherDims.WF S50000x75 S1000000x1 S1000000x75 [1] [0] [] [0] [] 1 ![1, 75]
  dot_S5000x75_S75x50_S5000x50_1_0_0_1_n_n_wf : DotDims.WF S5000x75 S75x50 S5000x50 [1] [0] [0] [1] [] []
  dot_S5000x14_S14x50_S5000x50_1_0_0_1_n_n_wf : DotDims.WF S5000x14 S14x50 S5000x50 [1] [0] [0] [1] [] []
  dot_S5000x100_S100x50_S5000x50_1_0_0_1_n_n_wf : DotDims.WF S5000x100 S100x50 S5000x50 [1] [0] [0] [1] [] []
  scatter_S50000x50_S1000000x1_S1000000x50_1_0_0_1_wf : ScatterDims.WF S50000x50 S1000000x1 S1000000x50 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x14.size a ≤ S1000000x14.size a
  hwx0_0 : ∀ i : grid0.Coords, EltTy.bits .f32 = 32 ∨ (Rect.block (s := S1000000x14) S5000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x75.size a ≤ S1000000x75.size a
  hwx0_1 : ∀ i : grid0.Coords, EltTy.bits .bf16 = 32 ∨ (Rect.block (s := S1000000x75) S5000x75.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x75.size a ≤ S1000000x75.size a
  hwx0_2 : ∀ i : grid0.Coords, EltTy.bits .bf16 = 32 ∨ (Rect.block (s := S1000000x75) S5000x75.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x50.size a ≤ S14x50.size a
  hwx0_3 : ∀ i : grid0.Coords, EltTy.bits .bf16 = 32 ∨ (Rect.block (s := S14x50) S14x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S14x50.size a ≤ S14x50.size a
  hwx0_5 : ∀ i : grid0.Coords, EltTy.bits .bf16 = 32 ∨ (Rect.block (s := S14x50) S14x50.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S75x50.size a ≤ S75x50.size a
  hwx0_7 : ∀ i : grid0.Coords, EltTy.bits .bf16 = 32 ∨ (Rect.block (s := S75x50) S75x50.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S75x50.size a ≤ S75x50.size a
  hwx0_8 : ∀ i : grid0.Coords, EltTy.bits .bf16 = 32 ∨ (Rect.block (s := S75x50) S75x50.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x50.size a ≤ S1x50.size a
  hwx0_9 : ∀ i : grid0.Coords, EltTy.bits .f32 = 32 ∨ (Rect.block (s := S1x50) S1x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S100x50.size a ≤ S100x50.size a
  hwx0_10 : ∀ i : grid0.Coords, EltTy.bits .bf16 = 32 ∨ (Rect.block (s := S100x50) S100x50.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x50.size a ≤ S1x50.size a
  hwx0_11 : ∀ i : grid0.Coords, EltTy.bits .f32 = 32 ∨ (Rect.block (s := S1x50) S1x50.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x50.size a ≤ S1000000x50.size a
  hwx0_12 : ∀ i : grid0.Coords, EltTy.bits .f32 = 32 ∨ (Rect.block (s := S1000000x50) S5000x50.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x50.size a ≤ S1000000x50.size a
  hwx0_13 : ∀ i : grid0.Coords, EltTy.bits .bf16 = 32 ∨ (Rect.block (s := S1000000x50) S5000x50.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x75.size a ≤ S50000x75.size a
  hwx1_0 : ∀ i : grid1.Coords, EltTy.bits .f32 = 32 ∨ (Rect.block (s := S50000x75) S5000x75.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x50.size a ≤ S50000x50.size a
  hwx1_1 : ∀ i : grid1.Coords, EltTy.bits .f32 = 32 ∨ (Rect.block (s := S50000x50) S5000x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S75x50.size a ≤ S75x50.size a
  hwx1_2 : ∀ i : grid1.Coords, EltTy.bits .bf16 = 32 ∨ (Rect.block (s := S75x50) S75x50.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50.size a ≤ S1x50.size a
  hwx1_3 : ∀ i : grid1.Coords, EltTy.bits .f32 = 32 ∨ (Rect.block (s := S1x50) S1x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x50.size a ≤ S100x50.size a
  hwx1_4 : ∀ i : grid1.Coords, EltTy.bits .bf16 = 32 ∨ (Rect.block (s := S100x50) S100x50.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x50.size a ≤ S1x50.size a
  hwx1_5 : ∀ i : grid1.Coords, EltTy.bits .f32 = 32 ∨ (Rect.block (s := S1x50) S1x50.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x50.size a ≤ S50000x50.size a
  hwx1_6 : ∀ i : grid1.Coords, EltTy.bits .f32 = 32 ∨ (Rect.block (s := S50000x50) S5000x50.size (cc1_transform_6 i) (hinb1_6 i)).WholeWords (EltTy.packing .f32)

variable [Facts₀]

def gather_S50000x75_S1000000x1_S1000000x75_1_0_n_n_0_1_175 : GatherDims S50000x75 S1000000x1 S1000000x75 where
  offsetDims := [1]
  collapsedSliceDims := [0]
  operandBatchingDims := []
  startIndicesBatchingDims := []
  startIndexMap := [0]
  indexVectorDim := 1
  sliceSizes := ![1, 75]
  wf := gather_S50000x75_S1000000x1_S1000000x75_1_0_n_n_0_1_175_wf
def dot_S5000x75_S75x50_S5000x50_1_0_0_1_n_n : DotDims S5000x75 S75x50 S5000x50 where
  lhsContracting := [1]
  rhsContracting := [0]
  lhsNonContracting := [0]
  rhsNonContracting := [1]
  lhsBatch := []
  rhsBatch := []
  wf := dot_S5000x75_S75x50_S5000x50_1_0_0_1_n_n_wf
def dot_S5000x14_S14x50_S5000x50_1_0_0_1_n_n : DotDims S5000x14 S14x50 S5000x50 where
  lhsContracting := [1]
  rhsContracting := [0]
  lhsNonContracting := [0]
  rhsNonContracting := [1]
  lhsBatch := []
  rhsBatch := []
  wf := dot_S5000x14_S14x50_S5000x50_1_0_0_1_n_n_wf
def dot_S5000x100_S100x50_S5000x50_1_0_0_1_n_n : DotDims S5000x100 S100x50 S5000x50 where
  lhsContracting := [1]
  rhsContracting := [0]
  lhsNonContracting := [0]
  rhsNonContracting := [1]
  lhsBatch := []
  rhsBatch := []
  wf := dot_S5000x100_S100x50_S5000x50_1_0_0_1_n_n_wf
def scatter_S50000x50_S1000000x1_S1000000x50_1_0_0_1 : ScatterDims S50000x50 S1000000x1 S1000000x50 where
  updateWindowDims := [1]
  insertedWindowDims := [0]
  scatterDimsToOperandDims := [0]
  indexVectorDim := 1
  wf := scatter_S50000x50_S1000000x1_S1000000x50_1_0_0_1_wf

abbrev win0_0 : Pipeline.Window sig grid0 :=
  Pipeline.Window.ofSpec (Memref.whole main_arg1) S5000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x75.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x75.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S14x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S14x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S75x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S75x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S1x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S100x50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S1x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v34_0) S5000x50.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v34_1) S5000x50.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x75.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S75x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S100x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x50.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x75 : Shape := ⟨2, ![50000, 75]⟩
abbrev S1000000x14 : Shape := ⟨2, ![1000000, 14]⟩
abbrev S1000000 : Shape := ⟨1, ![1000000]⟩
abbrev S1000000x2 : Shape := ⟨2, ![1000000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S50000x50 : Shape := ⟨2, ![50000, 50]⟩
abbrev S1x50 : Shape := ⟨2, ![1, 50]⟩
abbrev S_ : Shape := ⟨0, ![]⟩
abbrev S1000000x50 : Shape := ⟨2, ![1000000, 50]⟩
abbrev S1000000x1 : Shape := ⟨2, ![1000000, 1]⟩
abbrev S50000x100 : Shape := ⟨2, ![50000, 100]⟩
abbrev S1000000x2x1 : Shape := ⟨3, ![1000000, 2, 1]⟩
abbrev S1000000x2x75 : Shape := ⟨3, ![1000000, 2, 75]⟩
abbrev S1000000x150 : Shape := ⟨2, ![1000000, 150]⟩
abbrev S1000000x100 : Shape := ⟨2, ![1000000, 100]⟩

abbrev nBuf : Space → Nat
  | .hbm => 84
  | .vmem => 0
  | .smem => 0
  | _ => 0

abbrev bufTy : (tb : Table) → Fin (tcTables nBuf tb) → BufTy
  | .hbm, ⟨0, _⟩ => ⟨S50000x75, .f32⟩
  | .hbm, ⟨1, _⟩ => ⟨S1000000x14, .f32⟩
  | .hbm, ⟨2, _⟩ => ⟨S1000000, .i32⟩
  | .hbm, ⟨3, _⟩ => ⟨S1000000x2, .i32⟩
  | .hbm, ⟨4, _⟩ => ⟨S75x50, .f32⟩
  | .hbm, ⟨5, _⟩ => ⟨S50, .f32⟩
  | .hbm, ⟨6, _⟩ => ⟨S14x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S50000x50, .f32⟩
  | .hbm, ⟨17, _⟩ => ⟨S1x50, .f32⟩
  | .hbm, ⟨18, _⟩ => ⟨S50000x50, .f32⟩
  | .hbm, ⟨19, _⟩ => ⟨S50000x50, .f32⟩
  | .hbm, ⟨20, _⟩ => ⟨S_, .f32⟩
  | .hbm, ⟨21, _⟩ => ⟨S50000x50, .f32⟩
  | .hbm, ⟨22, _⟩ => ⟨S50000x50, .f32⟩
  | .hbm, ⟨23, _⟩ => ⟨S1000000x50, .f32⟩
  | .hbm, ⟨24, _⟩ => ⟨S1x50, .f32⟩
  | .hbm, ⟨25, _⟩ => ⟨S1000000x50, .f32⟩
  | .hbm, ⟨26, _⟩ => ⟨S1000000x50, .f32⟩
  | .hbm, ⟨27, _⟩ => ⟨S_, .f32⟩
  | .hbm, ⟨28, _⟩ => ⟨S1000000x50, .f32⟩
  | .hbm, ⟨29, _⟩ => ⟨S1000000x50, .f32⟩
  | .hbm, ⟨30, _⟩ => ⟨S_, .f32⟩
  | .hbm, ⟨31, _⟩ => ⟨S50000x50, .f32⟩
  | .hbm, ⟨32, _⟩ => ⟨S1000000x1, .i32⟩
  | .hbm, ⟨33, _⟩ => ⟨S50000x50, .f32⟩
  | .hbm, ⟨34, _⟩ => ⟨S50000x100, .f32⟩
  | .hbm, ⟨35, _⟩ => ⟨S50000x50, .f32⟩
  | .hbm, ⟨36, _⟩ => ⟨S1x50, .f32⟩
  | .hbm, ⟨37, _⟩ => ⟨S50000x50, .f32⟩
  | .hbm, ⟨38, _⟩ => ⟨S50000x50, .f32⟩
  | .hbm, ⟨39, _⟩ => ⟨S_, .f32⟩
  | .hbm, ⟨40, _⟩ => ⟨S50000x50, .f32⟩
  | .hbm, ⟨41, _⟩ => ⟨S50000x50, .f32⟩
  | .hbm, ⟨42, _⟩ => ⟨S_, .i32⟩
  | .hbm, ⟨43, _⟩ => ⟨S1000000x2, .i32⟩
  | .hbm, ⟨44, _⟩ => ⟨S1000000x2, .i1⟩
  | .hbm, ⟨45, _⟩ => ⟨S_, .i32⟩
  | .hbm, ⟨46, _⟩ => ⟨S1000000x2, .i32⟩
  | .hbm, ⟨47, _⟩ => ⟨S1000000x2, .i32⟩
  | .hbm, ⟨48, _⟩ => ⟨S1000000x2, .i32⟩
  | .hbm, ⟨49, _⟩ => ⟨S1000000x2x1, .i32⟩
  | .hbm, ⟨50, _⟩ => ⟨S1000000x2x75, .f32⟩
  | .hbm, ⟨51, _⟩ => ⟨S1000000x150, .f32⟩
  | .hbm, ⟨52, _⟩ => ⟨S1000000x50, .f32⟩
  | .hbm, ⟨53, _⟩ => ⟨S1x50, .f32⟩
  | .hbm, ⟨54, _⟩ => ⟨S1000000x50, .f32⟩
  | .hbm, ⟨55, _⟩ => ⟨S1000000x50, .f32⟩
  | .hbm, ⟨56, _⟩ => ⟨S_, .f32⟩
  | .hbm, ⟨57, _⟩ => ⟨S1000000x50, .f32⟩
  | .hbm, ⟨58, _⟩ => ⟨S1000000x50, .f32⟩
  | .hbm, ⟨59, _⟩ => ⟨S1000000x2x75, .f32⟩
  | .hbm, ⟨60, _⟩ => ⟨S1000000x150, .f32⟩
  | .hbm, ⟨61, _⟩ => ⟨S1000000x50, .f32⟩
  | .hbm, ⟨62, _⟩ => ⟨S1x50, .f32⟩
  | .hbm, ⟨63, _⟩ => ⟨S1000000x50, .f32⟩
  | .hbm, ⟨64, _⟩ => ⟨S1000000x50, .f32⟩
  | .hbm, ⟨65, _⟩ => ⟨S_, .f32⟩
  | .hbm, ⟨66, _⟩ => ⟨S1000000x50, .f32⟩
  | .hbm, ⟨67, _⟩ => ⟨S1000000x50, .f32⟩
  | .hbm, ⟨68, _⟩ => ⟨S1000000x50, .f32⟩
  | .hbm, ⟨69, _⟩ => ⟨S1x50, .f32⟩
  | .hbm, ⟨70, _⟩ => ⟨S1000000x50, .f32⟩
  | .hbm, ⟨71, _⟩ => ⟨S1000000x50, .f32⟩
  | .hbm, ⟨72, _⟩ => ⟨S_, .f32⟩
  | .hbm, ⟨73, _⟩ => ⟨S1000000x50, .f32⟩
  | .hbm, ⟨74, _⟩ => ⟨S1000000x50, .f32⟩
  | .hbm, ⟨75, _⟩ => ⟨S1000000x50, .f32⟩
  | .hbm, ⟨76, _⟩ => ⟨S1000000x100, .f32⟩
  | .hbm, ⟨77, _⟩ => ⟨S1000000x50, .f32⟩
  | .hbm, ⟨78, _⟩ => ⟨S1x50, .f32⟩
  | .hbm, ⟨79, _⟩ => ⟨S1000000x50, .f32⟩
  | .hbm, ⟨80, _⟩ => ⟨S1000000x50, .f32⟩
  | .hbm, ⟨81, _⟩ => ⟨S_, .f32⟩
  | .hbm, ⟨82, _⟩ => ⟨S1000000x50, .f32⟩
  | .hbm, ⟨83, _⟩ => ⟨S1000000x50, .f32⟩
  | _, _ => ⟨S50000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_cst : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call4_cst : Ref sig .tc := ⟨.hbm, 65, rfl⟩
abbrev main_call4_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call5_cst : Ref sig .tc := ⟨.hbm, 72, rfl⟩
abbrev main_call5_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call6_cst : Ref sig .tc := ⟨.hbm, 81, rfl⟩
abbrev main_call6_v0 : Ref sig .tc := ⟨.hbm, 82, rfl⟩
abbrev main_v50 : Ref sig .tc := ⟨.hbm, 83, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S_S50000x50 : S_.BroadcastsInDim S50000x50 (![] : Fin 0 → Fin S50000x50.rank)
  bcast_S1x50_S1000000x50_0_1 : S1x50.BroadcastsInDim S1000000x50 (![0, 1] : Fin 2 → Fin S1000000x50.rank)
  bcast_S_S1000000x50 : S_.BroadcastsInDim S1000000x50 (![] : Fin 0 → Fin S1000000x50.rank)
  bcast_S1000000_S1000000x1_0 : S1000000.BroadcastsInDim S1000000x1 (![0] : Fin 1 → Fin S1000000x1.rank)
  concatenates_S50000x50_S50000x50_S50000x100_d1 : Shape.Concatenates [S50000x50, S50000x50] S50000x100 1
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x75_S1000000x150 : S1000000x2x75.ShapeCasts S1000000x150
  concatenates_S1000000x50_S1000000x50_S1000000x100_d1 : Shape.Concatenates [S1000000x50, S1000000x50] S1000000x100 1
  dot_S50000x75_S75x50_S50000x50_1_0_0_1_n_n_wf : DotDims.WF S50000x75 S75x50 S50000x50 [1] [0] [0] [1] [] []
  dot_S1000000x14_S14x50_S1000000x50_1_0_0_1_n_n_wf : DotDims.WF S1000000x14 S14x50 S1000000x50 [1] [0] [0] [1] [] []
  scatter_S50000x50_S1000000x1_S1000000x50_1_0_0_1_wf : ScatterDims.WF S50000x50 S1000000x1 S1000000x50 [1] [0] [0] 1
  dot_S50000x100_S100x50_S50000x50_1_0_0_1_n_n_wf : DotDims.WF S50000x100 S100x50 S50000x50 [1] [0] [0] [1] [] []
  gather_S50000x75_S1000000x2x1_S1000000x2x75_2_0_n_n_0_2_175_wf : GatherDims.WF S50000x75 S1000000x2x1 S1000000x2x75 [2] [0] [] [0] [] 2 ![1, 75]
  dot_S1000000x150_S150x50_S1000000x50_1_0_0_1_n_n_wf : DotDims.WF S1000000x150 S150x50 S1000000x50 [1] [0] [0] [1] [] []
  dot_S1000000x100_S100x50_S1000000x50_1_0_0_1_n_n_wf : DotDims.WF S1000000x100 S100x50 S1000000x50 [1] [0] [0] [1] [] []

variable [Facts₀]

def dot_S50000x75_S75x50_S50000x50_1_0_0_1_n_n : DotDims S50000x75 S75x50 S50000x50 where
  lhsContracting := [1]
  rhsContracting := [0]
  lhsNonContracting := [0]
  rhsNonContracting := [1]
  lhsBatch := []
  rhsBatch := []
  wf := dot_S50000x75_S75x50_S50000x50_1_0_0_1_n_n_wf
def dot_S1000000x14_S14x50_S1000000x50_1_0_0_1_n_n : DotDims S1000000x14 S14x50 S1000000x50 where
  lhsContracting := [1]
  rhsContracting := [0]
  lhsNonContracting := [0]
  rhsNonContracting := [1]
  lhsBatch := []
  rhsBatch := []
  wf := dot_S1000000x14_S14x50_S1000000x50_1_0_0_1_n_n_wf
def scatter_S50000x50_S1000000x1_S1000000x50_1_0_0_1 : ScatterDims S50000x50 S1000000x1 S1000000x50 where
  updateWindowDims := [1]
  insertedWindowDims := [0]
  scatterDimsToOperandDims := [0]
  indexVectorDim := 1
  wf := scatter_S50000x50_S1000000x1_S1000000x50_1_0_0_1_wf
def dot_S50000x100_S100x50_S50000x50_1_0_0_1_n_n : DotDims S50000x100 S100x50 S50000x50 where
  lhsContracting := [1]
  rhsContracting := [0]
  lhsNonContracting := [0]
  rhsNonContracting := [1]
  lhsBatch := []
  rhsBatch := []
  wf := dot_S50000x100_S100x50_S50000x50_1_0_0_1_n_n_wf
def gather_S50000x75_S1000000x2x1_S1000000x2x75_2_0_n_n_0_2_175 : GatherDims S50000x75 S1000000x2x1 S1000000x2x75 where
  offsetDims := [2]
  collapsedSliceDims := [0]
  operandBatchingDims := []
  startIndicesBatchingDims := []
  startIndexMap := [0]
  indexVectorDim := 2
  sliceSizes := ![1, 75]
  wf := gather_S50000x75_S1000000x2x1_S1000000x2x75_2_0_n_n_0_2_175_wf
def dot_S1000000x150_S150x50_S1000000x50_1_0_0_1_n_n : DotDims S1000000x150 S150x50 S1000000x50 where
  lhsContracting := [1]
  rhsContracting := [0]
  lhsNonContracting := [0]
  rhsNonContracting := [1]
  lhsBatch := []
  rhsBatch := []
  wf := dot_S1000000x150_S150x50_S1000000x50_1_0_0_1_n_n_wf
def dot_S1000000x100_S100x50_S1000000x50_1_0_0_1_n_n : DotDims S1000000x100 S100x50 S1000000x50 where
  lhsContracting := [1]
  rhsContracting := [0]
  lhsNonContracting := [0]
  rhsNonContracting := [1]
  lhsBatch := []
  rhsBatch := []
  wf := dot_S1000000x100_S100x50_S1000000x50_1_0_0_1_n_n_wf

class Facts : Prop extends Facts₀ where

variable [Facts]
-- ==== Proof.Spec.lean ====
/-
  The layer both programs compute, entry by entry, on the extended reals.

  A hidden unit is a rectified affine form: the larger of 0 and (an inner product plus a bias). The layer has
  four kinds of them. A pair's own features feed two units (one per weight matrix); an atom's own features feed
  one; the two endpoint atoms of a pair, taken in either order, feed a unit whose 150 inputs are the first
  endpoint's 75 features followed by the second's; and an output unit reads 100 inputs that are 50 hidden values
  followed by 50 others. A unit over an input given in two pieces is written here as the sum of the two pieces'
  inner products, each piece against its own rows of the weight matrix: that is the form in which a program that
  multiplies the pieces separately and a program that joins them first and multiplies once meet, since a finite
  sum over the joined range is the sum over the first part plus the sum over the second (`sum_two`), with no
  finiteness asked of the terms.

  An endpoint's row is read off an integer: a negative one is first moved up by the number of atoms, and the
  result, read as a signed integer, is brought into the valid range of rows.
-/
import Idealize.ShloMosaic.PureOps.Ideal
import Idealize.ShloMosaic.Lib.ValueIdx

noncomputable section

namespace Cert.PairAtom

open Idealize.ShloMosaic Idealize.ShloMosaic.ValueIdx

/-- A matrix and a vector of extended reals over literal extents. -/
abbrev A2 (m n : Nat) : Type := (⟨2, ![m, n]⟩ : Shape).Idx → EReal
abbrev A1 (n : Nat) : Type := (⟨1, ![n]⟩ : Shape).Idx → EReal
/-- A matrix of 32-bit integers. -/
abbrev I2 (m n : Nat) : Type := (⟨2, ![m, n]⟩ : Shape).Idx → BitVec 32

/-- A sum over `Fin N` with `N = A + B` is the sum over the first `A` places plus the sum over the last `B`. -/
theorem sum_two {M : Type} [AddCommMonoid M] {A B N : Nat} (h : A + B = N) (f : Fin N → M) :
    ∑ k, f k = ∑ k : Fin A, f ⟨k.val, by omega⟩ + ∑ k : Fin B, f ⟨A + k.val, by omega⟩ := by
  subst h
  rw [Fin.sum_univ_add]
  rfl

/-- A rectified affine unit over `K` inputs. -/
def unit {K : Nat} (x w : Fin K → EReal) (b : EReal) : EReal := max (∑ k, x k * w k + b) 0

/-- A rectified affine unit whose input comes in two pieces, each with its own weights. -/
def unit2 {A B : Nat} (x : Fin A → EReal) (y : Fin B → EReal) (w₁ : Fin A → EReal) (w₂ : Fin B → EReal) (b : EReal) : EReal :=
  max (∑ k, x k * w₁ k + ∑ k, y k * w₂ k + b) 0

/-- A unit over the joined input is the unit over the two pieces. -/
theorem unit_joined {A B N : Nat} (h : A + B = N) (z w : Fin N → EReal) (b : EReal) :
    unit z w b = unit2 (fun k : Fin A => z ⟨k.val, by omega⟩) (fun k : Fin B => z ⟨A + k.val, by omega⟩)
      (fun k : Fin A => w ⟨k.val, by omega⟩) (fun k : Fin B => w ⟨A + k.val, by omega⟩) b := by
  unfold unit unit2
  rw [sum_two h]

/-- Row `r`, column `c` of a dense rectified layer: the inputs are row `r` of `x`, the weights column `c` of `W`. -/
def dense {R K : Nat} (x : A2 R K) (W : A2 K 50) (b : A1 50) (r : Fin R) (c : Fin 50) : EReal :=
  unit (fun k : Fin K => x (ix2 r k)) (fun k : Fin K => W (ix2 k c)) (b (ix1 c))

/-- A negative integer is moved up by the number of atoms. -/
def wrap (v : BitVec 32) : BitVec 32 := Scalar.select (IntOp.cmpi .slt v 0#32) (IntOp.addi v 50000#32) v

/-- The row of the atom table an integer names: read signed after the move, brought into `[0, 49999]`. -/
def row (v : BitVec 32) : Fin 50000 := ⟨min (wrap v).toInt.toNat (50000 - 1), by omega⟩

/-- Feature `k` of endpoint `e` of pair `r`. -/
def endpoint (af : A2 50000 75) (a2p : I2 1000000 2) (r : Fin 1000000) (e : Fin 2) (k : Fin 75) : EReal :=
  af (ix2 (row (a2p (ix2 r e))) k)

/-- The unit over two endpoints' features `f` then `g`, column `c`: `f` against the first 75 rows of the weights,
    `g` against the last 75. -/
def ends (f g : Fin 75 → EReal) (W : A2 150 50) (b : A1 50) (c : Fin 50) : EReal :=
  unit2 f g (fun k : Fin 75 => W (ix2 (⟨k.val, by omega⟩ : Fin 150) c)) (fun k : Fin 75 => W (ix2 (⟨75 + k.val, by omega⟩ : Fin 150) c))
    (b (ix1 c))

/-- The pair output at pair `r`, column `c`: 50 sums of the two orderings' endpoint units, then the 50 pair units. -/
def pairOut (af : A2 50000 75) (pf : A2 1000000 14) (a2p : I2 1000000 2) (Wap : A2 150 50) (bap : A1 50)
    (Wpp : A2 14 50) (bpp : A1 50) (Wp : A2 100 50) (bp : A1 50) (r : Fin 1000000) (c : Fin 50) : EReal :=
  unit2
    (fun k : Fin 50 => ends (endpoint af a2p r 0) (endpoint af a2p r 1) Wap bap k
      + ends (endpoint af a2p r 1) (endpoint af a2p r 0) Wap bap k)
    (fun k : Fin 50 => dense pf Wpp bpp r k)
    (fun k : Fin 50 => Wp (ix2 (⟨k.val, by omega⟩ : Fin 100) c)) (fun k : Fin 50 => Wp (ix2 (⟨50 + k.val, by omega⟩ : Fin 100) c))
    (bp (ix1 c))

/-- The atom output at atom `n`, column `c`, from the per-atom sums `S` of the pair-to-atom hidden values: the 50 atom
    units, then the 50 sums. -/
def atomOut (af : A2 50000 75) (S : A2 50000 50) (Waa : A2 75 50) (baa : A1 50) (Wa : A2 100 50) (ba : A1 50)
    (n : Fin 50000) (c : Fin 50) : EReal :=
  unit2 (fun k : Fin 50 => dense af Waa baa n k) (fun k : Fin 50 => S (ix2 n k))
    (fun k : Fin 50 => Wa (ix2 (⟨k.val, by omega⟩ : Fin 100) c)) (fun k : Fin 50 => Wa (ix2 (⟨50 + k.val, by omega⟩ : Fin 100) c))
    (ba (ix1 c))

/-- The three arrays: the pair-to-atom hidden values, the pair outputs, the atom outputs. -/
def hiddenArr (pf : A2 1000000 14) (W : A2 14 50) (b : A1 50) : A2 1000000 50 := fun i => dense pf W b (i 0) (i 1)

def pairArr (af : A2 50000 75) (pf : A2 1000000 14) (a2p : I2 1000000 2) (Wap : A2 150 50) (bap : A1 50)
    (Wpp : A2 14 50) (bpp : A1 50) (Wp : A2 100 50) (bp : A1 50) : A2 1000000 50 :=
  fun i => pairOut af pf a2p Wap bap Wpp bpp Wp bp (i 0) (i 1)

def atomArr (af : A2 50000 75) (S : A2 50000 50) (Waa : A2 75 50) (baa : A1 50) (Wa : A2 100 50) (ba : A1 50) : A2 50000 50 :=
  fun i => atomOut af S Waa baa Wa ba (i 0) (i 1)

end Cert.PairAtom

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Units.lean ====
/-
  The hidden units as the vector operations compute them, read at an entry.

  A rectified dense layer on a block of rows — a matrix product into a zero accumulator, a bias row spread down the
  rows, the larger of that and zero — is at entry (p, q) the unit whose inputs are row p of the block and whose
  weights are column q of the weight matrix. The same with two products added before the bias is the unit over an
  input in two pieces. And when the block's rows are two blocks set side by side, the product against a weight
  matrix is the sum of the two blocks' inner products against the upper and the lower rows of the weights: the sum
  over the joined columns splits into the sum over the left block's columns and the sum over the right block's.
  A change of float format does nothing on the extended reals.
-/
import proofs.«159960_j61830349193917_2_alg».proof.Proof.Spec
import proofs.«159960_j61830349193917_2_alg».proof.Proof.LibCat
import proofs.«159960_j61830349193917_2_alg».proof.Proof.LibMatProd
import Idealize.ShloMosaic.Lib.ValueLayout
import Idealize.ShloMosaic.PureOps.Ideal.Laws

noncomputable section

namespace Cert.PairAtom

open Idealize.ShloMosaic Idealize.ShloMosaic.ValueIdx

variable {M K N : Nat} {φ₁ φ₂ : FTy}

/-- One product, a bias row, the clamp at zero: the unit over row `p` and column `q`. -/
theorem dense_apply (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (matmul (DotDims.plain M K N) none x w (constant ⟨2, ![M, N]⟩ .f32 0x00000000#32))
        (broadcastTo ⟨2, ![M, N]⟩ b hb)) (broadcast ⟨2, ![M, N]⟩ (Scalar.ofBits (F := Ideal) .f32 0x00000000#32)) (ix2 p q)
      = unit (fun k : Fin K => x (ix2 p k)) (fun k : Fin K => w (ix2 k q)) (b (ix2 0 q)) := by
  show max (FloatOps.matmul (DotDims.plain M K N) none x w (constant ⟨2, ![M, N]⟩ .f32 0x00000000#32) (ix2 p q)
      + broadcastTo ⟨2, ![M, N]⟩ b hb (ix2 p q)) (Ideal.ofBits .f32 0x00000000#32) = _
  rw [Cert.MatProd.matmul_plain_zero_apply, broadcastTo_1b_ab_apply, Ideal.ofBits_zero_f32]
  rfl

/-- Two products added, a bias row, the clamp at zero: the unit over the two rows `p`. -/
theorem dense2_apply (x y : FVec Ideal ⟨2, ![M, K]⟩ φ₁) (w₁ w₂ : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (addf (matmul (DotDims.plain M K N) none x w₁ (constant ⟨2, ![M, N]⟩ .f32 0x00000000#32))
          (matmul (DotDims.plain M K N) none y w₂ (constant ⟨2, ![M, N]⟩ .f32 0x00000000#32)))
        (broadcastTo ⟨2, ![M, N]⟩ b hb)) (broadcast ⟨2, ![M, N]⟩ (Scalar.ofBits (F := Ideal) .f32 0x00000000#32)) (ix2 p q)
      = unit2 (fun k : Fin K => x (ix2 p k)) (fun k : Fin K => y (ix2 p k)) (fun k : Fin K => w₁ (ix2 k q))
          (fun k : Fin K => w₂ (ix2 k q)) (b (ix2 0 q)) := by
  show max ((FloatOps.matmul (DotDims.plain M K N) none x w₁ (constant ⟨2, ![M, N]⟩ .f32 0x00000000#32) (ix2 p q)
        + FloatOps.matmul (DotDims.plain M K N) none y w₂ (constant ⟨2, ![M, N]⟩ .f32 0x00000000#32) (ix2 p q))
      + broadcastTo ⟨2, ![M, N]⟩ b hb (ix2 p q)) (Ideal.ofBits .f32 0x00000000#32) = _
  rw [Cert.MatProd.matmul_plain_zero_apply, Cert.MatProd.matmul_plain_zero_apply, broadcastTo_1b_ab_apply, Ideal.ofBits_zero_f32]
  rfl

/-- Two blocks `[M, A]` and `[M, B]` side by side at column `k < A`: the left block. -/
theorem side_left {A B C : Nat} (hC : A + B = C)
    (h : Shape.Concatenates [(⟨2, ![M, A]⟩ : Shape), ⟨2, ![M, B]⟩] ⟨2, ![M, C]⟩ 1)
    (u : (⟨2, ![M, A]⟩ : Shape).Idx → EReal) (v : (⟨2, ![M, B]⟩ : Shape).Idx → EReal) (p : Fin M) (k : Fin A) :
    concatenate ⟨2, ![M, C]⟩ 1 [⟨⟨2, ![M, A]⟩, u⟩, ⟨⟨2, ![M, B]⟩, v⟩] h (ix2 p (⟨k.val, by omega⟩ : Fin C)) = u (ix2 p k) := by
  subst hC
  exact Cert.Cat.cat2_cols_left h u v p k

/-- … and at column `A + k`: the right block at column `k`. -/
theorem side_right {A B C : Nat} (hC : A + B = C)
    (h : Shape.Concatenates [(⟨2, ![M, A]⟩ : Shape), ⟨2, ![M, B]⟩] ⟨2, ![M, C]⟩ 1)
    (u : (⟨2, ![M, A]⟩ : Shape).Idx → EReal) (v : (⟨2, ![M, B]⟩ : Shape).Idx → EReal) (p : Fin M) (k : Fin B) :
    concatenate ⟨2, ![M, C]⟩ 1 [⟨⟨2, ![M, A]⟩, u⟩, ⟨⟨2, ![M, B]⟩, v⟩] h (ix2 p (⟨A + k.val, by omega⟩ : Fin C)) = v (ix2 p k) := by
  subst hC
  exact Cert.Cat.cat2_cols_right h u v p k

/-- A product of two blocks set side by side (in whatever float format), a bias row, the clamp at zero: the unit over the
    two blocks' rows `p`, the left block against the weights' first `A` rows, the right against the last `B`. -/
theorem denseSide_apply {A B C : Nat} (hC : A + B = C)
    (h : Shape.Concatenates [(⟨2, ![M, A]⟩ : Shape), ⟨2, ![M, B]⟩] ⟨2, ![M, C]⟩ 1)
    (u : FVec Ideal ⟨2, ![M, A]⟩ .f32) (v : FVec Ideal ⟨2, ![M, B]⟩ .f32) (hφ : (FTy.bf16).bits < (FTy.f32).bits)
    (w : FVec Ideal ⟨2, ![C, N]⟩ φ₂) (b : FVec Ideal ⟨2, ![1, N]⟩ .f32)
    (hb : (⟨2, ![1, N]⟩ : Shape).Broadcasts ⟨2, ![M, N]⟩) (p : Fin M) (q : Fin N) :
    maximumf (addf (matmul (DotDims.plain M C N) none
          (truncf .bf16 (concatenate ⟨2, ![M, C]⟩ 1 [⟨⟨2, ![M, A]⟩, u⟩, ⟨⟨2, ![M, B]⟩, v⟩] h) hφ) w
          (constant ⟨2, ![M, N]⟩ .f32 0x00000000#32))
        (broadcastTo ⟨2, ![M, N]⟩ b hb)) (broadcast ⟨2, ![M, N]⟩ (Scalar.ofBits (F := Ideal) .f32 0x00000000#32)) (ix2 p q)
      = unit2 (fun k : Fin A => u (ix2 p k)) (fun k : Fin B => v (ix2 p k))
          (fun k : Fin A => w (ix2 (⟨k.val, by omega⟩ : Fin C) q)) (fun k : Fin B => w (ix2 (⟨A + k.val, by omega⟩ : Fin C) q))
          (b (ix2 0 q)) := by
  rw [dense_apply, unit_joined hC]
  refine congrArg₂ (fun f g => unit2 f g _ _ _) (funext fun k => ?_) (funext fun k => ?_)
  · exact side_left hC h u v p k
  · exact side_right hC h u v p k

end Cert.PairAtom

end
-- ==== Proof.KBody.lean ====
/-
  What each kernel body stores, read at an entry of the stored block, as units over the loaded blocks.

  The pair kernel stores two blocks of 5000 rows. One holds, at (p, q), the unit over row p of the pair-feature block
  against column q of one weight matrix. The other holds the output unit over 100 inputs in two pieces: for k < 50 the
  sum of the two orderings' endpoint units at column k — the first endpoint block's row against the upper weights plus
  the second's against the lower, and the same with the two endpoint blocks exchanged — and then the 50 pair units.
  The atom kernel stores the output unit over the 50 atom units followed by row p of the block of per-atom sums.
-/
import proofs.«159960_j61830349193917_2_alg».proof.Proof.Gen.KernelIdeal.Skeleton
import proofs.«159960_j61830349193917_2_alg».proof.Proof.Units

noncomputable section

namespace Cert.KernelIdeal.Body

open Cert.KernelIdeal Cert.KernelIdeal.Gen Idealize.ShloMosaic Idealize.ShloMosaic.ValueIdx Cert.PairAtom

/-- The three products' dimension numbers are those of the plain product. -/
theorem dot75 : dot_S5000x75_S75x50_S5000x50_1_0_0_1_n_n = DotDims.plain 5000 75 50 := rfl
theorem dot14 : dot_S5000x14_S14x50_S5000x50_1_0_0_1_n_n = DotDims.plain 5000 14 50 := rfl
theorem dot100 : dot_S5000x100_S100x50_S5000x50_1_0_0_1_n_n = DotDims.plain 5000 100 50 := rfl

/-- The pair-to-atom hidden block at (p, q). -/
theorem hidden_apply (x0 : FVec Ideal S5000x14 .f32) (x3 : FVec Ideal S14x50 .bf16) (x4 : FVec Ideal S1x50 .f32)
    (p : Fin 5000) (q : Fin 50) :
    k0_pay2 (F := Ideal) (k0_pay3 x0) (k0_pay6 x3) (k0_pay11 x4) (ix2 p q)
      = unit (fun k : Fin 14 => x0 (ix2 p k)) (fun k : Fin 14 => x3 (ix2 k q)) (x4 (ix2 0 q)) := by
  unfold k0_pay2 k0_pay3 k0_pay6 k0_pay11
  simp only [shapeCast_self, dot14]
  exact dense_apply (truncf .bf16 x0 bitsLt_bf16_f32) x3 x4 _ p q

/-- The pair output block at (p, q). -/
theorem pair_apply (x0 : FVec Ideal S5000x14 .f32) (x1 x2 : FVec Ideal S5000x75 .bf16) (x5 : FVec Ideal S14x50 .bf16)
    (x6 : FVec Ideal S1x50 .f32) (x7 x8 : FVec Ideal S75x50 .bf16) (x9 : FVec Ideal S1x50 .f32) (x10 : FVec Ideal S100x50 .bf16)
    (x11 : FVec Ideal S1x50 .f32) (p : Fin 5000) (q : Fin 50) :
    k0_pay1 (F := Ideal) (k0_pay3 x0) (k0_pay4 x1) (k0_pay5 x2) (k0_pay7 x5) (k0_pay8 x7) (k0_pay9 x8) (k0_pay10 x10) (k0_pay12 x6)
        (k0_pay13 x9) (k0_pay14 x11) (k0_pay15 x1 x2 x7 x8 x9) (constant S5000x50 .f32 0x00000000#32) (ix2 p q)
      = unit2
          (fun k : Fin 50 =>
            unit2 (fun j : Fin 75 => x1 (ix2 p j)) (fun j : Fin 75 => x2 (ix2 p j)) (fun j : Fin 75 => x7 (ix2 j k))
                (fun j : Fin 75 => x8 (ix2 j k)) (x9 (ix2 0 k))
              + unit2 (fun j : Fin 75 => x2 (ix2 p j)) (fun j : Fin 75 => x1 (ix2 p j)) (fun j : Fin 75 => x7 (ix2 j k))
                (fun j : Fin 75 => x8 (ix2 j k)) (x9 (ix2 0 k)))
          (fun k : Fin 50 => unit (fun j : Fin 14 => x0 (ix2 p j)) (fun j : Fin 14 => x5 (ix2 j k)) (x6 (ix2 0 k)))
          (fun k : Fin 50 => x10 (ix2 (⟨k.val, by omega⟩ : Fin 100) q))
          (fun k : Fin 50 => x10 (ix2 (⟨50 + k.val, by omega⟩ : Fin 100) q)) (x11 (ix2 0 q)) := by
  unfold k0_pay1 k0_pay3 k0_pay7 k0_pay10 k0_pay12 k0_pay14
  simp only [shapeCast_self, dot100]
  refine (denseSide_apply (A := 50) (B := 50) (C := 100) rfl _ _ _ _ x10 x11 _ p q).trans ?_
  refine congrArg₂ (fun f g => unit2 f g _ _ _) (funext fun k => ?_) (funext fun k => ?_)
  · unfold k0_pay15 k0_pay4 k0_pay5 k0_pay8 k0_pay9 k0_pay13
    simp only [shapeCast_self, dot75]
    exact congrArg₂ (fun a b : EReal => a + b) (dense2_apply x1 x2 x7 x8 x9 _ p k) (dense2_apply x2 x1 x7 x8 x9 _ p k)
  · simp only [shapeCast_self, dot14]
    exact dense_apply (truncf .bf16 x0 bitsLt_bf16_f32) x5 x6 _ p k

/-- The atom output block at (p, q). -/
theorem atom_apply (x0 : FVec Ideal S5000x75 .f32) (x1 : FVec Ideal S5000x50 .f32) (x2 : FVec Ideal S75x50 .bf16)
    (x3 : FVec Ideal S1x50 .f32) (x4 : FVec Ideal S100x50 .bf16) (x5 : FVec Ideal S1x50 .f32) (p : Fin 5000) (q : Fin 50) :
    k1_pay1 (F := Ideal) x0 x1 x2 x4 x3 x5 (ix2 p q)
      = unit2 (fun k : Fin 50 => unit (fun j : Fin 75 => x0 (ix2 p j)) (fun j : Fin 75 => x2 (ix2 j k)) (x3 (ix2 0 k)))
          (fun k : Fin 50 => x1 (ix2 p k))
          (fun k : Fin 50 => x4 (ix2 (⟨k.val, by omega⟩ : Fin 100) q))
          (fun k : Fin 50 => x4 (ix2 (⟨50 + k.val, by omega⟩ : Fin 100) q)) (x5 (ix2 0 q)) := by
  unfold k1_pay1
  simp only [shapeCast_self, dot100]
  refine (denseSide_apply (A := 50) (B := 50) (C := 100) rfl _ _ _ _ x4 x5 _ p q).trans ?_
  refine congrArg₂ (fun f g => unit2 f g _ _ _) (funext fun k => ?_) (funext fun k => ?_)
  · simp only [shapeCast_self, dot75]
    exact dense_apply (truncf .bf16 x0 bitsLt_bf16_f32) x2 x3 _ p k
  · simp only [shapeCast_self]

end Cert.KernelIdeal.Body

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.KHost.lean ====
/-
  The arrays the two kernels find when they start, read at an entry, as functions of the program's arguments.

  Before the pair kernel the host prepares: the endpoint features — each column of the endpoint table, negatives moved
  up by the number of atoms, names a row of the atom table, and the gathered array holds that row (the table's change of
  float format does nothing on the extended reals); the weight matrices in another float format, one of them cut into
  its upper and its lower 75 rows; and each bias vector laid out as one row. Between the two kernels it adds the
  pair-to-atom hidden values into one row per atom, named by the segment array: that array is kept as the host's sum
  applied to what the pair kernel left, never opened.
-/
import proofs.«159960_j61830349193917_2_alg».proof.Proof.Gen.KernelIdeal.Frame
import proofs.«159960_j61830349193917_2_alg».proof.Proof.Spec
import proofs.«159960_j61830349193917_2_alg».proof.Proof.LibRowGather
import proofs.«159960_j61830349193917_2_alg».proof.Proof.LibBroadcast
import Idealize.ShloMosaic.Lib.ValueLayout
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Cert.PairAtom

/-! ## Endpoint features -/

/-- The gather's dimension numbers are those of a row gather at starts laid out `[R, 1]`. -/
theorem gather_eq : gather_S50000x75_S1000000x1_S1000000x75_1_0_n_n_0_1_175
    = Cert.RowGather.dims2 50000 75 1000000 Facts₀.gather_S50000x75_S1000000x1_S1000000x75_1_0_n_n_0_1_175_wf := rfl

/-- Column `e` of the endpoint table as a vector, at pair `r`. -/
theorem column_apply (a2p : IVec S1000000x2 32) (o : Nat) (e : Fin 2) (he : e.val = o + 0)
    (hs : S1000000x2.Slices ![0, o] S1000000x1) (r : Fin 1000000) :
    shapeCast S1000000 (extractStridedSlice S1000000x1 ![0, o] a2p hs) shapeCasts_S1000000x1_S1000000 (ix1 r) = a2p (ix2 r e) := by
  refine (shapeCast_apply _ shapeCasts_S1000000x1_S1000000 (ix1 r) (ix2 r (0 : Fin 1)) (by
    rw [Shape.rowMajor_val_two, Shape.rowMajor_val_one]; show r.val * 1 + 0 = r.val; omega)).trans ?_
  exact slice2_axis1_apply o a2p hs r (0 : Fin 1) e he

/-- The rows gathered at an array of starts whose entry for pair `r` is known: the table's row that entry names, read
    signed and brought into range. -/
theorem gathered_of_idx (af : FVec Ideal S50000x75 .f32) (idx : IVec S1000000x1 32) (v : BitVec 32) (r : Fin 1000000) (k : Fin 75)
    (h : idx (ix2 r (0 : Fin 1)) = v) :
    Host.gather gather_S50000x75_S1000000x1_S1000000x75_1_0_n_n_0_1_175 (truncf .bf16 af bitsLt_bf16_f32) idx (ix2 r k)
      = af (ix2 (⟨min v.toInt.toNat (50000 - 1), by omega⟩ : Fin 50000) k) := by
  subst h
  rw [gather_eq]
  exact Cert.RowGather.rows2_apply (by decide) _ (truncf .bf16 af bitsLt_bf16_f32) idx r k

/-- The rows gathered at column `e` of the endpoint table, negatives moved up: entry (r, k) is feature `k` of endpoint
    `e` of pair `r`. -/
theorem gathered_apply (af : FVec Ideal S50000x75 .f32) (a2p : IVec S1000000x2 32) (o : Nat) (e : Fin 2) (he : e.val = o + 0)
    (hs : S1000000x2.Slices ![0, o] S1000000x1) (r : Fin 1000000) (k : Fin 75) :
    Host.gather gather_S50000x75_S1000000x1_S1000000x75_1_0_n_n_0_1_175 (truncf .bf16 af bitsLt_bf16_f32)
        (broadcastInDim S1000000x1 ![0] bcast_S1000000_S1000000x1_0
          (select
            (cmpi .slt (shapeCast S1000000 (extractStridedSlice S1000000x1 ![0, o] a2p hs) shapeCasts_S1000000x1_S1000000)
              (broadcastInDim S1000000 ![] bcast_S_S1000000 (constantI S_ 32 0#32)))
            (addi (shapeCast S1000000 (extractStridedSlice S1000000x1 ![0, o] a2p hs) shapeCasts_S1000000x1_S1000000)
              (broadcastInDim S1000000 ![] bcast_S_S1000000 (constantI S_ 32 50000#32)))
            (shapeCast S1000000 (extractStridedSlice S1000000x1 ![0, o] a2p hs) shapeCasts_S1000000x1_S1000000)))
        (ix2 r k)
      = endpoint af a2p r e k := by
  refine gathered_of_idx af _ (wrap (a2p (ix2 r e))) r k ?_
  refine (Cert.Layout.col_of_vec_apply _ bcast_S1000000_S1000000x1_0 r).trans ?_
  show Scalar.select (IntOp.cmpi .slt (_ : BitVec 32) 0#32) (IntOp.addi (_ : BitVec 32) 50000#32) (_ : BitVec 32) = wrap (a2p (ix2 r e))
  rw [column_apply a2p o e he hs r]
  rfl

variable (m : (ℓ : Loc nD τ sig) → Buf (Elt Ideal) ℓ) (ρ : Dev nD → PrngReg)

/-! ## What the pair kernel finds -/

theorem V1_arg1 (c : Dev nD) : (V1 m ρ c main_arg1 : S1000000x14.Idx → EReal) = m ((c : Thread nD τ).loc main_arg1) := by
  dsimp only [V1, W1, hostOps0]; after_results_simp; try rfl

theorem V1_v11 (c : Dev nD) (r : Fin 1000000) (k : Fin 75) :
    (V1 m ρ c main_v11 : S1000000x75.Idx → EReal) (ix2 r k)
      = endpoint (m ((c : Thread nD τ).loc main_arg0)) (m ((c : Thread nD τ).loc main_arg3)) r 0 k := by
  dsimp only [V1, W1, hostOps0]
  after_results_simp
  exact gathered_apply _ _ 0 0 rfl _ r k

theorem V1_v18 (c : Dev nD) (r : Fin 1000000) (k : Fin 75) :
    (V1 m ρ c main_v18 : S1000000x75.Idx → EReal) (ix2 r k)
      = endpoint (m ((c : Thread nD τ).loc main_arg0)) (m ((c : Thread nD τ).loc main_arg3)) r 1 k := by
  dsimp only [V1, W1, hostOps0]
  after_results_simp
  exact gathered_apply _ _ 1 1 rfl _ r k

theorem V1_v21 (c : Dev nD) (i : S14x50.Idx) :
    (V1 m ρ c main_v21 : S14x50.Idx → EReal) i = (m ((c : Thread nD τ).loc main_arg6) : S14x50.Idx → EReal) i := by
  dsimp only [V1, W1, hostOps0]
  after_results_simp
  try rfl

theorem V1_v22 (c : Dev nD) (i : S14x50.Idx) :
    (V1 m ρ c main_v22 : S14x50.Idx → EReal) i = (m ((c : Thread nD τ).loc main_arg12) : S14x50.Idx → EReal) i := by
  dsimp only [V1, W1, hostOps0]
  after_results_simp
  try rfl

theorem V1_v23 (c : Dev nD) (k : Fin 75) (q : Fin 50) :
    (V1 m ρ c main_v23 : S75x50.Idx → EReal) (ix2 k q)
      = (m ((c : Thread nD τ).loc main_arg10) : S150x50.Idx → EReal) (ix2 (⟨k.val, by omega⟩ : Fin 150) q) := by
  dsimp only [V1, W1, hostOps0]
  after_results_simp
  exact slice2_axis0_apply 0 _ slices_S150x50_S75x50_0_0 k q _ (by show k.val = 0 + k.val; omega)

theorem V1_v24 (c : Dev nD) (k : Fin 75) (q : Fin 50) :
    (V1 m ρ c main_v24 : S75x50.Idx → EReal) (ix2 k q)
      = (m ((c : Thread nD τ).loc main_arg10) : S150x50.Idx → EReal) (ix2 (⟨75 + k.val, by omega⟩ : Fin 150) q) := by
  dsimp only [V1, W1, hostOps0]
  after_results_simp
  exact slice2_axis0_apply 75 _ slices_S150x50_S75x50_75_0 k q _ rfl

theorem V1_v25 (c : Dev nD) (i : S100x50.Idx) :
    (V1 m ρ c main_v25 : S100x50.Idx → EReal) i = (m ((c : Thread nD τ).loc main_arg14) : S100x50.Idx → EReal) i := by
  dsimp only [V1, W1, hostOps0]
  after_results_simp
  try rfl

theorem V1_v29 (c : Dev nD) (q : Fin 50) :
    (V1 m ρ c main_v29 : S1x50.Idx → EReal) (ix2 0 q) = (m ((c : Thread nD τ).loc main_arg7) : S50.Idx → EReal) (ix1 q) := by
  dsimp only [V1, W1, hostOps0]
  after_results_simp
  exact Cert.Layout.row_of_vec_apply _ shapeCasts_S50_S1x50 q

theorem V1_v30 (c : Dev nD) (q : Fin 50) :
    (V1 m ρ c main_v30 : S1x50.Idx → EReal) (ix2 0 q) = (m ((c : Thread nD τ).loc main_arg13) : S50.Idx → EReal) (ix1 q) := by
  dsimp only [V1, W1, hostOps0]
  after_results_simp
  exact Cert.Layout.row_of_vec_apply _ shapeCasts_S50_S1x50 q

theorem V1_v31 (c : Dev nD) (q : Fin 50) :
    (V1 m ρ c main_v31 : S1x50.Idx → EReal) (ix2 0 q) = (m ((c : Thread nD τ).loc main_arg11) : S50.Idx → EReal) (ix1 q) := by
  dsimp only [V1, W1, hostOps0]
  after_results_simp
  exact Cert.Layout.row_of_vec_apply _ shapeCasts_S50_S1x50 q

theorem V1_v33 (c : Dev nD) (q : Fin 50) :
    (V1 m ρ c main_v33 : S1x50.Idx → EReal) (ix2 0 q) = (m ((c : Thread nD τ).loc main_arg15) : S50.Idx → EReal) (ix1 q) := by
  dsimp only [V1, W1, hostOps0]
  after_results_simp
  exact Cert.Layout.row_of_vec_apply _ shapeCasts_S50_S1x50 q

/-! ## What the atom kernel's other inputs were at the pair kernel's start (nothing in between writes them) -/

theorem V1_arg0 (c : Dev nD) : (V1 m ρ c main_arg0 : S50000x75.Idx → EReal) = m ((c : Thread nD τ).loc main_arg0) := by
  dsimp only [V1, W1, hostOps0]; after_results_simp; try rfl

theorem V1_arg2 (c : Dev nD) : (V1 m ρ c main_arg2 : S1000000.Idx → BitVec 32) = m ((c : Thread nD τ).loc main_arg2) := by
  dsimp only [V1, W1, hostOps0]; after_results_simp; try rfl

theorem V1_v26 (c : Dev nD) (i : S75x50.Idx) :
    (V1 m ρ c main_v26 : S75x50.Idx → EReal) i = (m ((c : Thread nD τ).loc main_arg4) : S75x50.Idx → EReal) i := by
  dsimp only [V1, W1, hostOps0]
  after_results_simp
  try rfl

theorem V1_v27 (c : Dev nD) (i : S100x50.Idx) :
    (V1 m ρ c main_v27 : S100x50.Idx → EReal) i = (m ((c : Thread nD τ).loc main_arg8) : S100x50.Idx → EReal) i := by
  dsimp only [V1, W1, hostOps0]
  after_results_simp
  try rfl

theorem V1_v28 (c : Dev nD) (q : Fin 50) :
    (V1 m ρ c main_v28 : S1x50.Idx → EReal) (ix2 0 q) = (m ((c : Thread nD τ).loc main_arg5) : S50.Idx → EReal) (ix1 q) := by
  dsimp only [V1, W1, hostOps0]
  after_results_simp
  exact Cert.Layout.row_of_vec_apply _ shapeCasts_S50_S1x50 q

theorem V1_v32 (c : Dev nD) (q : Fin 50) :
    (V1 m ρ c main_v32 : S1x50.Idx → EReal) (ix2 0 q) = (m ((c : Thread nD τ).loc main_arg9) : S50.Idx → EReal) (ix1 q) := by
  dsimp only [V1, W1, hostOps0]
  after_results_simp
  exact Cert.Layout.row_of_vec_apply _ shapeCasts_S50_S1x50 q

end Cert.KernelIdeal.Host

end
-- ==== Proof.KBlocks0.lean ====
/-
  From the pair kernel's blocks to its two output arrays.

  The kernel runs at 200 grid points; point `t` reads rows `5000 t … 5000 t + 4999` of the pair-feature array and of the
  two endpoint-feature arrays, the whole of each weight and bias array, and writes rows `5000 t … 5000 t + 4999` of each
  output. So what point `t` writes back is the restriction to those rows of ONE function of the program's arguments — the
  hidden-value array, and the pair-output array — and, the 200 row ranges tiling the million rows, each output array
  ends holding that function.
-/
import proofs.«159960_j61830349193917_2_alg».proof.Proof.Gen.KernelIdeal.Frame
import proofs.«159960_j61830349193917_2_alg».proof.Proof.KBody
import proofs.«159960_j61830349193917_2_alg».proof.Proof.KHost
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.SL.Sem Cert.PairAtom Cert.KernelIdeal.Host
open Idealize.ShloMosaic.Pipeline (Dat Cfg Window)

theorem hz : (![0, 0] : Fin 2 → Nat) = fun _ => 0 := funext fun a => by fin_cases a <;> rfl

/-- A grid point is below 200. -/
theorem lt200 (t : Fin cfg0.N) : t.val < 200 := Nat.lt_of_lt_of_eq t.isLt N_0

/-- The array row of row `p` of point `t`'s blocks. -/
def rowOf (t : Fin cfg0.N) (p : Fin 5000) : Fin 1000000 := ⟨t.val * 5000 + p.val, by have := lt200 t; omega⟩

/-- The printed index maps, decided over the grid: the row-tiled windows are at block row `t`, the others at block 0. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0 :=
  (by decide +kernel : ∀ t : Fin grid0.N, _)

variable (m : (ℓ : Loc nD τ sig) → Buf (Elt Ideal) ℓ) (ρ : Dev nD → PrngReg)

/-- Input window 0's block at point `t`, entry (p, k): the array at row `5000 t + p`. -/
theorem blk0 (c : Dev nD) (t : Fin cfg0.N) (p : Fin 5000) (k : Fin 14) :
    iblk0 (V1 m ρ) c 0 t (ix2 p k) = (V1 m ρ c main_arg1 : S1000000x14.Idx → EReal) (ix2 (rowOf t p) k) := by
  show V1 m ρ c main_arg1 (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [(idx0 t).1]; omega
  | ⟨1, _⟩ => show win0_0.index t (1 : Fin 2) * 14 + 1 * k.val = k.val; rw [(idx0 t).2.1]; omega

/-- Input window 1's block at point `t`, entry (p, k): the array at row `5000 t + p`. -/
theorem blk1 (c : Dev nD) (t : Fin cfg0.N) (p : Fin 5000) (k : Fin 75) :
    iblk0 (V1 m ρ) c 1 t (ix2 p k) = (V1 m ρ c main_v11 : S1000000x75.Idx → EReal) (ix2 (rowOf t p) k) := by
  show V1 m ρ c main_v11 (((cfg0.win 1).blk t).view.emb (ix2 p k)) = _
  refine congrArg _ (funext fun a => Fin.ext ?_)
  match a with
  | ⟨0, _⟩ => show win0_1.index t (0 : Fin 2) * 5000 + 1 * p.val = t.val * 5000 + p.val; rw [(idx0 t).2.2.1]; omega
  | ⟨1, _⟩ => show win0_1.index t (1 : Fin 2) * 75 + 1 * k.val = k.val; rw [(idx0 t).2.2.2.1]; omega

/-- Input window 2's block at point `t`, entry (p, k): the array at row `5000 t + p`. -/
theorem blk2 (c : Dev nD) (t : Fin cfg0.N) (p : Fin 5000) (k : Fin 75) :
    iblk0 (V1 m ρ) c 2 t (ix2 p k) = (V1 m ρ c main_v18 : S1000000x75.Idx → EReal) (ix2 (rowOf t p) k) := by
  show V1 m ρ c main_v18 (((cfg0.win 2).blk t).view.emb (ix2 p k)) = _
  refine congrArg _ (funext fun a => Fin.ext ?_)
  match a with
  | ⟨0, _⟩ => show win0_2.index t (0 : Fin 2) * 5000 + 1 * p.val = t.val * 5000 + p.val; rw [(idx0 t).2.2.2.2.1]; omega
  | ⟨1, _⟩ => show win0_2.index t (1 : Fin 2) * 75 + 1 * k.val = k.val; rw [(idx0 t).2.2.2.2.2.1]; omega

/-- Input window 3's block is its whole array at every point. -/
theorem blk3 (c : Dev nD) (t : Fin cfg0.N) (p : Fin 14) (k : Fin 50) :
    iblk0 (V1 m ρ) c 3 t (ix2 p k) = (V1 m ρ c main_v21 : S14x50.Idx → EReal) (ix2 p k) := by
  show V1 m ρ c main_v21 (((cfg0.win 3).blk t).view.emb (ix2 p k)) = _
  refine congrArg _ (funext fun a => Fin.ext ?_)
  match a with
  | ⟨0, _⟩ => show win0_3.index t (0 : Fin 2) * 14 + 1 * p.val = p.val; rw [(idx0 t).2.2.2.2.2.2.1]; omega
  | ⟨1, _⟩ => show win0_3.index t (1 : Fin 2) * 50 + 1 * k.val = k.val; rw [(idx0 t).2.2.2.2.2.2.2.1]; omega

/-- Input window 4's block is its whole array at every point. -/
theorem blk4 (c : Dev nD) (t : Fin cfg0.N) (p : Fin 1) (k : Fin 50) :
    iblk0 (V1 m ρ) c 4 t (ix2 p k) = (V1 m ρ c main_v29 : S1x50.Idx → EReal) (ix2 p k) := by
  show V1 m ρ c main_v29 (((cfg0.win 4).blk t).view.emb (ix2 p k)) = _
  refine congrArg _ (funext fun a => Fin.ext ?_)
  match a with
  | ⟨0, _⟩ => show win0_4.index t (0 : Fin 2) * 1 + 1 * p.val = p.val; rw [(idx0 t).2.2.2.2.2.2.2.2.1]; omega
  | ⟨1, _⟩ => show win0_4.index t (1 : Fin 2) * 50 + 1 * k.val = k.val; rw [(idx0 t).2.2.2.2.2.2.2.2.2.1]; omega

/-- Input window 5's block is its whole array at every point. -/
theorem blk5 (c : Dev nD) (t : Fin cfg0.N) (p : Fin 14) (k : Fin 50) :
    iblk0 (V1 m ρ) c 5 t (ix2 p k) = (V1 m ρ c main_v22 : S14x50.Idx → EReal) (ix2 p k) := by
  show V1 m ρ c main_v22 (((cfg0.win 5).blk t).view.emb (ix2 p k)) = _
  refine congrArg _ (funext fun a => Fin.ext ?_)
  match a with
  | ⟨0, _⟩ => show win0_5.index t (0 : Fin 2) * 14 + 1 * p.val = p.val; rw [(idx0 t).2.2.2.2.2.2.2.2.2.2.1]; omega
  | ⟨1, _⟩ => show win0_5.index t (1 : Fin 2) * 50 + 1 * k.val = k.val; rw [(idx0 t).2.2.2.2.2.2.2.2.2.2.2.1]; omega

/-- Input window 6's block is its whole array at every point. -/
theorem blk6 (c : Dev nD) (t : Fin cfg0.N) (p : Fin 1) (k : Fin 50) :
    iblk0 (V1 m ρ) c 6 t (ix2 p k) = (V1 m ρ c main_v30 : S1x50.Idx → EReal) (ix2 p k) := by
  show V1 m ρ c main_v30 (((cfg0.win 6).blk t).view.emb (ix2 p k)) = _
  refine congrArg _ (funext fun a => Fin.ext ?_)
  match a with
  | ⟨0, _⟩ => show win0_6.index t (0 : Fin 2) * 1 + 1 * p.val = p.val; rw [(idx0 t).2.2.2.2.2.2.2.2.2.2.2.2.1]; omega
  | ⟨1, _⟩ => show win0_6.index t (1 : Fin 2) * 50 + 1 * k.val = k.val; rw [(idx0 t).2.2.2.2.2.2.2.2.2.2.2.2.2.1]; omega

/-- Input window 7's block is its whole array at every point. -/
theorem blk7 (c : Dev nD) (t : Fin cfg0.N) (p : Fin 75) (k : Fin 50) :
    iblk0 (V1 m ρ) c 7 t (ix2 p k) = (V1 m ρ c main_v23 : S75x50.Idx → EReal) (ix2 p k) := by
  show V1 m ρ c main_v23 (((cfg0.win 7).blk t).view.emb (ix2 p k)) = _
  refine congrArg _ (funext fun a => Fin.ext ?_)
  match a with
  | ⟨0, _⟩ => show win0_7.index t (0 : Fin 2) * 75 + 1 * p.val = p.val; rw [(idx0 t).2.2.2.2.2.2.2.2.2.2.2.2.2.2.1]; omega
  | ⟨1, _⟩ => show win0_7.index t (1 : Fin 2) * 50 + 1 * k.val = k.val; rw [(idx0 t).2.2.2.2.2.2.2.2.2.2.2.2.2.2.2.1]; omega

/-- Input window 8's block is its whole array at every point. -/
theorem blk8 (c : Dev nD) (t : Fin cfg0.N) (p : Fin 75) (k : Fin 50) :
    iblk0 (V1 m ρ) c 8 t (ix2 p k) = (V1 m ρ c main_v24 : S75x50.Idx → EReal) (ix2 p k) := by
  show V1 m ρ c main_v24 (((cfg0.win 8).blk t).view.emb (ix2 p k)) = _
  refine congrArg _ (funext fun a => Fin.ext ?_)
  match a with
  | ⟨0, _⟩ => show win0_8.index t (0 : Fin 2) * 75 + 1 * p.val = p.val; rw [(idx0 t).2.2.2.2.2.2.2.2.2.2.2.2.2.2.2.2.1]; omega
  | ⟨1, _⟩ => show win0_8.index t (1 : Fin 2) * 50 + 1 * k.val = k.val; rw [(idx0 t).2.2.2.2.2.2.2.2.2.2.2.2.2.2.2.2.2.1]; omega

/-- Input window 9's block is its whole array at every point. -/
theorem blk9 (c : Dev nD) (t : Fin cfg0.N) (p : Fin 1) (k : Fin 50) :
    iblk0 (V1 m ρ) c 9 t (ix2 p k) = (V1 m ρ c main_v31 : S1x50.Idx → EReal) (ix2 p k) := by
  show V1 m ρ c main_v31 (((cfg0.win 9).blk t).view.emb (ix2 p k)) = _
  refine congrArg _ (funext fun a => Fin.ext ?_)
  match a with
  | ⟨0, _⟩ => show win0_9.index t (0 : Fin 2) * 1 + 1 * p.val = p.val; rw [(idx0 t).2.2.2.2.2.2.2.2.2.2.2.2.2.2.2.2.2.2.1]; omega
  | ⟨1, _⟩ => show win0_9.index t (1 : Fin 2) * 50 + 1 * k.val = k.val; rw [(idx0 t).2.2.2.2.2.2.2.2.2.2.2.2.2.2.2.2.2.2.2.1]; omega

/-- Input window 10's block is its whole array at every point. -/
theorem blk10 (c : Dev nD) (t : Fin cfg0.N) (p : Fin 100) (k : Fin 50) :
    iblk0 (V1 m ρ) c 10 t (ix2 p k) = (V1 m ρ c main_v25 : S100x50.Idx → EReal) (ix2 p k) := by
  show V1 m ρ c main_v25 (((cfg0.win 10).blk t).view.emb (ix2 p k)) = _
  refine congrArg _ (funext fun a => Fin.ext ?_)
  match a with
  | ⟨0, _⟩ => show win0_10.index t (0 : Fin 2) * 100 + 1 * p.val = p.val; rw [(idx0 t).2.2.2.2.2.2.2.2.2.2.2.2.2.2.2.2.2.2.2.2.1]; omega
  | ⟨1, _⟩ => show win0_10.index t (1 : Fin 2) * 50 + 1 * k.val = k.val; rw [(idx0 t).2.2.2.2.2.2.2.2.2.2.2.2.2.2.2.2.2.2.2.2.2.1]; omega

/-- Input window 11's block is its whole array at every point. -/
theorem blk11 (c : Dev nD) (t : Fin cfg0.N) (p : Fin 1) (k : Fin 50) :
    iblk0 (V1 m ρ) c 11 t (ix2 p k) = (V1 m ρ c main_v33 : S1x50.Idx → EReal) (ix2 p k) := by
  show V1 m ρ c main_v33 (((cfg0.win 11).blk t).view.emb (ix2 p k)) = _
  refine congrArg _ (funext fun a => Fin.ext ?_)
  match a with
  | ⟨0, _⟩ => show win0_11.index t (0 : Fin 2) * 1 + 1 * p.val = p.val; rw [(idx0 t).2.2.2.2.2.2.2.2.2.2.2.2.2.2.2.2.2.2.2.2.2.2.1]; omega
  | ⟨1, _⟩ => show win0_11.index t (1 : Fin 2) * 50 + 1 * k.val = k.val; rw [(idx0 t).2.2.2.2.2.2.2.2.2.2.2.2.2.2.2.2.2.2.2.2.2.2.2.1]; omega

/-- Where entry (p, q) of point `t`'s block of an output sits in the array. -/
theorem out_emb12 (t : Fin cfg0.N) (p : Fin 5000) (q : Fin 50) :
    ((cfg0.win 12).blk t).view.emb (ix2 p q) = ix2 (rowOf t p) q := by
  refine funext fun a => Fin.ext ?_
  match a with
  | ⟨0, _⟩ => show win0_12.index t (0 : Fin 2) * 5000 + 1 * p.val = t.val * 5000 + p.val; rw [(idx0 t).2.2.2.2.2.2.2.2.2.2.2.2.2.2.2.2.2.2.2.2.2.2.2.2.1]; omega
  | ⟨1, _⟩ => show win0_12.index t (1 : Fin 2) * 50 + 1 * q.val = q.val; rw [(idx0 t).2.2.2.2.2.2.2.2.2.2.2.2.2.2.2.2.2.2.2.2.2.2.2.2.2.1]; omega

theorem out_emb13 (t : Fin cfg0.N) (p : Fin 5000) (q : Fin 50) :
    ((cfg0.win 13).blk t).view.emb (ix2 p q) = ix2 (rowOf t p) q := by
  refine funext fun a => Fin.ext ?_
  match a with
  | ⟨0, _⟩ => show win0_13.index t (0 : Fin 2) * 5000 + 1 * p.val = t.val * 5000 + p.val; rw [(idx0 t).2.2.2.2.2.2.2.2.2.2.2.2.2.2.2.2.2.2.2.2.2.2.2.2.2.2.1]; omega
  | ⟨1, _⟩ => show win0_13.index t (1 : Fin 2) * 50 + 1 * q.val = q.val; rw [(idx0 t).2.2.2.2.2.2.2.2.2.2.2.2.2.2.2.2.2.2.2.2.2.2.2.2.2.2.2]; omega

/-- The hidden-value array and the pair-output array of the program's arguments. -/
abbrev hiddenOf (c : Dev nD) : A2 1000000 50 := hiddenArr (m ((c : Thread nD τ).loc main_arg1)) (m ((c : Thread nD τ).loc main_arg6)) (m ((c : Thread nD τ).loc main_arg7))
abbrev pairOf (c : Dev nD) : A2 1000000 50 :=
  pairArr (m ((c : Thread nD τ).loc main_arg0)) (m ((c : Thread nD τ).loc main_arg1)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- WHAT POINT `t` WRITES BACK to the hidden-value output is block `t` of the hidden-value array. -/
theorem flushed13 (c : Dev nD) (t : Fin cfg0.N) :
    (dat0 (V1 m ρ) c).flushed 13 t = ((cfg0.win 13).blk t).view.read (Elt Ideal) (hiddenOf m c) := by
  show (cfg0.win 13).cut (grid0.coords t) ((dat0 (V1 m ρ) c).after 13 t) = _
  rw [after0_13]
  unfold out0_13
  rw [View.canon_unit_zero hz]
  simp only [View.ld_unit_zero (S := S5000x14) hz, View.ld_unit_zero (S := S14x50) hz, View.ld_unit_zero (S := S1x50) hz]
  funext j
  obtain ⟨p, q, rfl⟩ : ∃ (p : Fin 5000) (q : Fin 50), j = ix2 p q := ⟨j 0, j 1, eq_ix2 j⟩
  refine (Body.hidden_apply (iblk0 (V1 m ρ) c 0 t) (iblk0 (V1 m ρ) c 3 t) (iblk0 (V1 m ρ) c 4 t) p q).trans ?_
  rw [View.read_apply, out_emb13 t p q]
  show _ = unit (fun k : Fin 14 => (m ((c : Thread nD τ).loc main_arg1)) (ix2 (rowOf t p) k)) (fun k : Fin 14 => (m ((c : Thread nD τ).loc main_arg6)) (ix2 k q)) ((m ((c : Thread nD τ).loc main_arg7)) (ix1 q))
  refine congr (congrArg₂ unit (funext fun k => ?_) (funext fun k => ?_)) ?_
  · exact (blk0 m ρ c t p k).trans (congrFun (V1_arg1 m ρ c) _)
  · exact (blk3 m ρ c t k q).trans (V1_v21 m ρ c _)
  · exact (blk4 m ρ c t 0 q).trans (V1_v29 m ρ c q)

/-- WHAT POINT `t` WRITES BACK to the pair output is block `t` of the pair-output array. -/
theorem flushed12 (c : Dev nD) (t : Fin cfg0.N) :
    (dat0 (V1 m ρ) c).flushed 12 t = ((cfg0.win 12).blk t).view.read (Elt Ideal) (pairOf m c) := by
  show (cfg0.win 12).cut (grid0.coords t) ((dat0 (V1 m ρ) c).after 12 t) = _
  rw [after0_12]
  unfold out0_12
  rw [View.canon_unit_zero hz]
  simp only [View.ld_unit_zero (S := S5000x14) hz, View.ld_unit_zero (S := S5000x75) hz, View.ld_unit_zero (S := S14x50) hz,
    View.ld_unit_zero (S := S1x50) hz, View.ld_unit_zero (S := S75x50) hz, View.ld_unit_zero (S := S100x50) hz]
  funext j
  obtain ⟨p, q, rfl⟩ : ∃ (p : Fin 5000) (q : Fin 50), j = ix2 p q := ⟨j 0, j 1, eq_ix2 j⟩
  refine (Body.pair_apply (iblk0 (V1 m ρ) c 0 t) (iblk0 (V1 m ρ) c 1 t) (iblk0 (V1 m ρ) c 2 t) (iblk0 (V1 m ρ) c 5 t)
    (iblk0 (V1 m ρ) c 6 t) (iblk0 (V1 m ρ) c 7 t) (iblk0 (V1 m ρ) c 8 t) (iblk0 (V1 m ρ) c 9 t) (iblk0 (V1 m ρ) c 10 t)
    (iblk0 (V1 m ρ) c 11 t) p q).trans ?_
  rw [View.read_apply, out_emb12 t p q]
  show _ = pairOut (m ((c : Thread nD τ).loc main_arg0)) (m ((c : Thread nD τ).loc main_arg1)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (rowOf t p) q
  unfold pairOut ends dense
  have hf0 : ∀ j : Fin 75, iblk0 (V1 m ρ) c 1 t (ix2 p j) = endpoint (m ((c : Thread nD τ).loc main_arg0)) (m ((c : Thread nD τ).loc main_arg3)) (rowOf t p) 0 j :=
    fun j => (blk1 m ρ c t p j).trans (V1_v11 m ρ c _ j)
  have hf1 : ∀ j : Fin 75, iblk0 (V1 m ρ) c 2 t (ix2 p j) = endpoint (m ((c : Thread nD τ).loc main_arg0)) (m ((c : Thread nD τ).loc main_arg3)) (rowOf t p) 1 j :=
    fun j => (blk2 m ρ c t p j).trans (V1_v18 m ρ c _ j)
  have hw0 : ∀ (j : Fin 75) (k : Fin 50), iblk0 (V1 m ρ) c 7 t (ix2 j k) = (m ((c : Thread nD τ).loc main_arg10)) (ix2 (⟨j.val, by omega⟩ : Fin 150) k) :=
    fun j k => (blk7 m ρ c t j k).trans (V1_v23 m ρ c j k)
  have hw1 : ∀ (j : Fin 75) (k : Fin 50), iblk0 (V1 m ρ) c 8 t (ix2 j k) = (m ((c : Thread nD τ).loc main_arg10)) (ix2 (⟨75 + j.val, by omega⟩ : Fin 150) k) :=
    fun j k => (blk8 m ρ c t j k).trans (V1_v24 m ρ c j k)
  have hb : ∀ k : Fin 50, iblk0 (V1 m ρ) c 9 t (ix2 0 k) = (m ((c : Thread nD τ).loc main_arg11)) (ix1 k) :=
    fun k => (blk9 m ρ c t 0 k).trans (V1_v31 m ρ c k)
  refine congr (congr (congr (congrArg₂ unit2 (funext fun k => ?_) (funext fun k => ?_)) (funext fun k => ?_)) (funext fun k => ?_)) ?_
  · simp only [hf0, hf1, hw0, hw1, hb]
  · refine congr (congrArg₂ unit (funext fun j => ?_) (funext fun j => ?_)) ?_
    · exact (blk0 m ρ c t p j).trans (congrFun (V1_arg1 m ρ c) _)
    · exact (blk5 m ρ c t j k).trans (V1_v22 m ρ c _)
    · exact (blk6 m ρ c t 0 k).trans (V1_v30 m ρ c k)
  · exact (blk10 m ρ c t _ q).trans (V1_v25 m ρ c _)
  · exact (blk10 m ρ c t _ q).trans (V1_v25 m ρ c _)
  · exact (blk11 m ρ c t 0 q).trans (V1_v33 m ρ c q)

/-- Every row of an output array is in some point's block: row `i` in point `i / 5000`'s. -/
theorem cover12 (i : S1000000x50.Idx) : ∃ t : Fin cfg0.N, (cfg0.win 12).flush t = true ∧ i ∈ ((cfg0.win 12).blk t).view.set := by
  have h0 : (i 0).val < 1000000 := (i 0).isLt
  have h1 : (i 1).val < 50 := (i 1).isLt
  obtain ⟨t, ht⟩ : ∃ t : Fin cfg0.N, t.val = (i 0).val / 5000 :=
    ⟨⟨(i 0).val / 5000, by rw [show cfg0.N = 200 from N_0]; omega⟩, rfl⟩
  refine ⟨t, flush0_12 t, ?_⟩
  show i ∈ ((View.whole main_v34_0).slice (win0_12.rect t)).set
  rw [View.set_slice_whole, Rect.mem_set_unit]
  intro a
  match a with
  | ⟨0, _⟩ =>
    show win0_12.index t (0 : Fin 2) * 5000 ≤ (i 0).val ∧ (i 0).val < win0_12.index t (0 : Fin 2) * 5000 + 5000
    rw [(idx0 t).2.2.2.2.2.2.2.2.2.2.2.2.2.2.2.2.2.2.2.2.2.2.2.2.1]; omega
  | ⟨1, _⟩ =>
    show win0_12.index t (1 : Fin 2) * 50 ≤ (i 1).val ∧ (i 1).val < win0_12.index t (1 : Fin 2) * 50 + 50
    rw [(idx0 t).2.2.2.2.2.2.2.2.2.2.2.2.2.2.2.2.2.2.2.2.2.2.2.2.2.1]; omega

theorem cover13 (i : S1000000x50.Idx) : ∃ t : Fin cfg0.N, (cfg0.win 13).flush t = true ∧ i ∈ ((cfg0.win 13).blk t).view.set := by
  have h0 : (i 0).val < 1000000 := (i 0).isLt
  have h1 : (i 1).val < 50 := (i 1).isLt
  obtain ⟨t, ht⟩ : ∃ t : Fin cfg0.N, t.val = (i 0).val / 5000 :=
    ⟨⟨(i 0).val / 5000, by rw [show cfg0.N = 200 from N_0]; omega⟩, rfl⟩
  refine ⟨t, flush0_13 t, ?_⟩
  show i ∈ ((View.whole main_v34_1).slice (win0_13.rect t)).set
  rw [View.set_slice_whole, Rect.mem_set_unit]
  intro a
  match a with
  | ⟨0, _⟩ =>
    show win0_13.index t (0 : Fin 2) * 5000 ≤ (i 0).val ∧ (i 0).val < win0_13.index t (0 : Fin 2) * 5000 + 5000
    rw [(idx0 t).2.2.2.2.2.2.2.2.2.2.2.2.2.2.2.2.2.2.2.2.2.2.2.2.2.2.1]; omega
  | ⟨1, _⟩ =>
    show win0_13.index t (1 : Fin 2) * 50 ≤ (i 1).val ∧ (i 1).val < win0_13.index t (1 : Fin 2) * 50 + 50
    rw [(idx0 t).2.2.2.2.2.2.2.2.2.2.2.2.2.2.2.2.2.2.2.2.2.2.2.2.2.2.2]; omega

/-- THE TWO OUTPUT ARRAYS after the pair kernel. -/
theorem final12 (c : Dev nD) : (dat0 (V1 m ρ) c).arrAt 12 cfg0.N = pairOf m c :=
  (dat0 (V1 m ρ) c).arrAt_eq_of_cover 12 (pairOf m c) (fun t _ => flushed12 m ρ c t) cover12

theorem final13 (c : Dev nD) : (dat0 (V1 m ρ) c).arrAt 13 cfg0.N = hiddenOf m c :=
  (dat0 (V1 m ρ) c).arrAt_eq_of_cover 13 (hiddenOf m c) (fun t _ => flushed13 m ρ c t) cover13

end Cert.KernelIdeal.Blocks0

end
-- ==== Proof.KHost1.lean ====
/-
  What the atom kernel finds when it starts.

  Between the two kernels the host widens the hidden-value array's float format (nothing on the extended reals) and adds
  its rows into one row per atom, named by the segment array: the per-atom sums, kept as the host's sum applied to the
  hidden-value array and never opened. The atom-feature array, the two weight matrices and the two bias rows are as the
  host prepared them before the pair kernel: neither that kernel nor the operations after it write them.
-/
import proofs.«159960_j61830349193917_2_alg».proof.Proof.KBlocks0

set_option maxRecDepth 16384

noncomputable section

namespace Cert.KernelIdeal.Host1

open Cert.KernelIdeal Cert.KernelIdeal.Gen Idealize.ShloMosaic Idealize.ShloMosaic.TcCoe Idealize.ShloMosaic.ValueIdx
open Idealize.SL.Sem Cert.PairAtom Cert.KernelIdeal.Host Cert.KernelIdeal.Blocks0

variable (m : (ℓ : Loc nD τ sig) → Buf (Elt Ideal) ℓ) (ρ : Dev nD → PrngReg)

/-- The per-atom sums of the hidden-value array: the host's sum into a zero array at the rows the segment array names. -/
def sumsOf (c : Dev nD) : A2 50000 50 :=
  Host.scatterAdd (F := Ideal) scatter_S50000x50_S1000000x1_S1000000x50_1_0_0_1
    (broadcastInDim S50000x50 ![] bcast_S_S50000x50 (constant (F := Ideal) S_ .f32 0x00000000#32))
    (broadcastInDim S1000000x1 ![0] bcast_S1000000_S1000000x1_0 (m ((c : Thread nD τ).loc main_arg2)))
    (extf .f32 (hiddenOf m c) bitsLt_bf16_f32)

theorem V3_arg0 (c : Dev nD) : (V3 m ρ c main_arg0 : S50000x75.Idx → EReal) = m ((c : Thread nD τ).loc main_arg0) := by
  dsimp only [V3, W3, hostOps1]
  after_results_simp
  rw [W2_of_ne m ρ c main_arg0 (by decide)]
  exact V1_arg0 m ρ c

theorem V3_v38 (c : Dev nD) : (V3 m ρ c main_v38 : S50000x50.Idx → EReal) = sumsOf m c := by
  dsimp only [V3, W3, hostOps1]
  after_results_simp
  rw [W2_of_ne m ρ c main_arg2 (by decide), show W2 m ρ c (Proc.devRef .tc main_v34_1) = _ from W2_arr m ρ c 13,
    final13 m ρ c, show W1 m ρ c (Proc.devRef .tc main_arg2) = _ from V1_arg2 m ρ c]
  rfl

theorem V3_v26 (c : Dev nD) (i : S75x50.Idx) :
    (V3 m ρ c main_v26 : S75x50.Idx → EReal) i = (m ((c : Thread nD τ).loc main_arg4) : S75x50.Idx → EReal) i := by
  dsimp only [V3, W3, hostOps1]
  after_results_simp
  rw [W2_of_ne m ρ c main_v26 (by decide)]
  exact V1_v26 m ρ c i

theorem V3_v27 (c : Dev nD) (i : S100x50.Idx) :
    (V3 m ρ c main_v27 : S100x50.Idx → EReal) i = (m ((c : Thread nD τ).loc main_arg8) : S100x50.Idx → EReal) i := by
  dsimp only [V3, W3, hostOps1]
  after_results_simp
  rw [W2_of_ne m ρ c main_v27 (by decide)]
  exact V1_v27 m ρ c i

theorem V3_v28 (c : Dev nD) (q : Fin 50) :
    (V3 m ρ c main_v28 : S1x50.Idx → EReal) (ix2 0 q) = (m ((c : Thread nD τ).loc main_arg5) : S50.Idx → EReal) (ix1 q) := by
  dsimp only [V3, W3, hostOps1]
  after_results_simp
  rw [W2_of_ne m ρ c main_v28 (by decide)]
  exact V1_v28 m ρ c q

theorem V3_v32 (c : Dev nD) (q : Fin 50) :
    (V3 m ρ c main_v32 : S1x50.Idx → EReal) (ix2 0 q) = (m ((c : Thread nD τ).loc main_arg9) : S50.Idx → EReal) (ix1 q) := by
  dsimp only [V3, W3, hostOps1]
  after_results_simp
  rw [W2_of_ne m ρ c main_v32 (by decide)]
  exact V1_v32 m ρ c q

end Cert.KernelIdeal.Host1

end
-- ==== Proof.KBlocks1.lean ====
/-
  From the atom kernel's blocks to the atom-output array.

  The atom kernel runs at 10 grid points;
  point `t` reads rows `5000 t … 5000 t + 4999` of the atom-feature array and of the per-atom sums, the whole of its two
  weight matrices and two bias rows, and writes the same rows of its output. So what point `t` writes back is the
  restriction to those rows of the atom-output array of the program's arguments and the per-atom sums, and the 10 row
  ranges tiling the 50000 rows, the output ends holding that array.
-/
import proofs.«159960_j61830349193917_2_alg».proof.Proof.KHost1

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL.Sem Cert.PairAtom Cert.KernelIdeal.Host Cert.KernelIdeal.Host1 Cert.KernelIdeal.Blocks0
open Idealize.ShloMosaic.Pipeline (Dat Cfg Window)

/-- A grid point is below 10. -/
theorem lt10 (t : Fin cfg1.N) : t.val < 10 := Nat.lt_of_lt_of_eq t.isLt N_1

/-- The array row of row `p` of point `t`'s blocks. -/
def rowOf1 (t : Fin cfg1.N) (p : Fin 5000) : Fin 50000 := ⟨t.val * 5000 + p.val, by have := lt10 t; omega⟩

/-- The printed index maps, decided over the grid: the row-tiled windows are at block row `t`, the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The blocks, at any contents `V` the kernel may find -/

section AnyEntry
variable (V : (c : Dev nD) → (b : Ref sig .tc) → Buf (Elt Ideal) ((c : Thread nD τ).loc b))

/-- The atom-feature block at point `t`, entry (p, k): the array at row `5000 t + p`. -/
theorem ablk0 (c : Dev nD) (t : Fin cfg1.N) (p : Fin 5000) (k : Fin 75) :
    iblk1 V c 0 t (ix2 p k) = (V c main_arg0 : S50000x75.Idx → EReal) (ix2 (rowOf1 t p) k) := by
  show V c main_arg0 (((cfg1.win 0).blk t).view.emb (ix2 p k)) = _
  refine congrArg _ (funext fun a => Fin.ext ?_)
  match a with
  | ⟨0, _⟩ => show win1_0.index t (0 : Fin 2) * 5000 + 1 * p.val = t.val * 5000 + p.val; rw [(idx1 t).1]; omega
  | ⟨1, _⟩ => show win1_0.index t (1 : Fin 2) * 75 + 1 * k.val = k.val; rw [(idx1 t).2.1]; omega

/-- The block of per-atom sums at point `t`, entry (p, k). -/
theorem ablk1 (c : Dev nD) (t : Fin cfg1.N) (p : Fin 5000) (k : Fin 50) :
    iblk1 V c 1 t (ix2 p k) = (V c main_v38 : S50000x50.Idx → EReal) (ix2 (rowOf1 t p) k) := by
  show V c main_v38 (((cfg1.win 1).blk t).view.emb (ix2 p k)) = _
  refine congrArg _ (funext fun a => Fin.ext ?_)
  match a with
  | ⟨0, _⟩ => show win1_1.index t (0 : Fin 2) * 5000 + 1 * p.val = t.val * 5000 + p.val; rw [(idx1 t).2.2.1]; omega
  | ⟨1, _⟩ => show win1_1.index t (1 : Fin 2) * 50 + 1 * k.val = k.val; rw [(idx1 t).2.2.2.1]; omega

/-- Each weight or bias block is its whole array at every point. -/
theorem ablk2 (c : Dev nD) (t : Fin cfg1.N) (p : Fin 75) (k : Fin 50) :
    iblk1 V c 2 t (ix2 p k) = (V c main_v26 : S75x50.Idx → EReal) (ix2 p k) := by
  show V c main_v26 (((cfg1.win 2).blk t).view.emb (ix2 p k)) = _
  refine congrArg _ (funext fun a => Fin.ext ?_)
  match a with
  | ⟨0, _⟩ => show win1_2.index t (0 : Fin 2) * 75 + 1 * p.val = p.val; rw [(idx1 t).2.2.2.2.1]; omega
  | ⟨1, _⟩ => show win1_2.index t (1 : Fin 2) * 50 + 1 * k.val = k.val; rw [(idx1 t).2.2.2.2.2.1]; omega

theorem ablk3 (c : Dev nD) (t : Fin cfg1.N) (p : Fin 1) (k : Fin 50) :
    iblk1 V c 3 t (ix2 p k) = (V c main_v28 : S1x50.Idx → EReal) (ix2 p k) := by
  show V c main_v28 (((cfg1.win 3).blk t).view.emb (ix2 p k)) = _
  refine congrArg _ (funext fun a => Fin.ext ?_)
  match a with
  | ⟨0, _⟩ => show win1_3.index t (0 : Fin 2) * 1 + 1 * p.val = p.val; rw [(idx1 t).2.2.2.2.2.2.1]; omega
  | ⟨1, _⟩ => show win1_3.index t (1 : Fin 2) * 50 + 1 * k.val = k.val; rw [(idx1 t).2.2.2.2.2.2.2.1]; omega

theorem ablk4 (c : Dev nD) (t : Fin cfg1.N) (p : Fin 100) (k : Fin 50) :
    iblk1 V c 4 t (ix2 p k) = (V c main_v27 : S100x50.Idx → EReal) (ix2 p k) := by
  show V c main_v27 (((cfg1.win 4).blk t).view.emb (ix2 p k)) = _
  refine congrArg _ (funext fun a => Fin.ext ?_)
  match a with
  | ⟨0, _⟩ => show win1_4.index t (0 : Fin 2) * 100 + 1 * p.val = p.val; rw [(idx1 t).2.2.2.2.2.2.2.2.1]; omega
  | ⟨1, _⟩ => show win1_4.index t (1 : Fin 2) * 50 + 1 * k.val = k.val; rw [(idx1 t).2.2.2.2.2.2.2.2.2.1]; omega

theorem ablk5 (c : Dev nD) (t : Fin cfg1.N) (p : Fin 1) (k : Fin 50) :
    iblk1 V c 5 t (ix2 p k) = (V c main_v32 : S1x50.Idx → EReal) (ix2 p k) := by
  show V c main_v32 (((cfg1.win 5).blk t).view.emb (ix2 p k)) = _
  refine congrArg _ (funext fun a => Fin.ext ?_)
  match a with
  | ⟨0, _⟩ => show win1_5.index t (0 : Fin 2) * 1 + 1 * p.val = p.val; rw [(idx1 t).2.2.2.2.2.2.2.2.2.2.1]; omega
  | ⟨1, _⟩ => show win1_5.index t (1 : Fin 2) * 50 + 1 * k.val = k.val; rw [(idx1 t).2.2.2.2.2.2.2.2.2.2.2.1]; omega

end AnyEntry

variable (m : (ℓ : Loc nD τ sig) → Buf (Elt Ideal) ℓ) (ρ : Dev nD → PrngReg)

/-- Where entry (p, q) of point `t`'s output block sits in the array. -/
theorem out_emb6 (t : Fin cfg1.N) (p : Fin 5000) (q : Fin 50) :
    ((cfg1.win 6).blk t).view.emb (ix2 p q) = ix2 (rowOf1 t p) q := by
  refine funext fun a => Fin.ext ?_
  match a with
  | ⟨0, _⟩ => show win1_6.index t (0 : Fin 2) * 5000 + 1 * p.val = t.val * 5000 + p.val; rw [(idx1 t).2.2.2.2.2.2.2.2.2.2.2.2.1]; omega
  | ⟨1, _⟩ => show win1_6.index t (1 : Fin 2) * 50 + 1 * q.val = q.val; rw [(idx1 t).2.2.2.2.2.2.2.2.2.2.2.2.2]; omega

/-- The atom-output array of the program's arguments and the per-atom sums. -/
abbrev atomOf (c : Dev nD) : A2 50000 50 := atomArr (m ((c : Thread nD τ).loc main_arg0)) (sumsOf m c) (m ((c : Thread nD τ).loc main_arg4)) (m ((c : Thread nD τ).loc main_arg5)) (m ((c : Thread nD τ).loc main_arg8)) (m ((c : Thread nD τ).loc main_arg9))

/-- WHAT POINT `t` WRITES BACK is block `t` of the atom-output array. -/
theorem flushed6 (c : Dev nD) (t : Fin cfg1.N) :
    (dat1 (V3 m ρ) c).flushed 6 t = ((cfg1.win 6).blk t).view.read (Elt Ideal) (atomOf m c) := by
  show (cfg1.win 6).cut (grid1.coords t) ((dat1 (V3 m ρ) c).after 6 t) = _
  rw [after1_6]
  unfold out1_6
  rw [View.canon_unit_zero hz]
  simp only [View.ld_unit_zero (S := S5000x75) hz, View.ld_unit_zero (S := S5000x50) hz, View.ld_unit_zero (S := S75x50) hz,
    View.ld_unit_zero (S := S1x50) hz, View.ld_unit_zero (S := S100x50) hz]
  funext j
  obtain ⟨p, q, rfl⟩ : ∃ (p : Fin 5000) (q : Fin 50), j = ix2 p q := ⟨j 0, j 1, eq_ix2 j⟩
  refine (Body.atom_apply (iblk1 (V3 m ρ) c 0 t) (iblk1 (V3 m ρ) c 1 t) (iblk1 (V3 m ρ) c 2 t) (iblk1 (V3 m ρ) c 3 t)
    (iblk1 (V3 m ρ) c 4 t) (iblk1 (V3 m ρ) c 5 t) p q).trans ?_
  rw [View.read_apply, out_emb6 t p q]
  show _ = atomOut (m ((c : Thread nD τ).loc main_arg0)) (sumsOf m c) (m ((c : Thread nD τ).loc main_arg4)) (m ((c : Thread nD τ).loc main_arg5)) (m ((c : Thread nD τ).loc main_arg8)) (m ((c : Thread nD τ).loc main_arg9)) (rowOf1 t p) q
  unfold atomOut dense
  refine congr (congr (congr (congrArg₂ unit2 (funext fun k => ?_) (funext fun k => ?_)) (funext fun k => ?_)) (funext fun k => ?_)) ?_
  · refine congr (congrArg₂ unit (funext fun j => ?_) (funext fun j => ?_)) ?_
    · exact (ablk0 (V3 m ρ) c t p j).trans (congrFun (V3_arg0 m ρ c) _)
    · exact (ablk2 (V3 m ρ) c t j k).trans (V3_v26 m ρ c _)
    · exact (ablk3 (V3 m ρ) c t 0 k).trans (V3_v28 m ρ c k)
  · exact (ablk1 (V3 m ρ) c t p k).trans (congrFun (V3_v38 m ρ c) _)
  · exact (ablk4 (V3 m ρ) c t _ q).trans (V3_v27 m ρ c _)
  · exact (ablk4 (V3 m ρ) c t _ q).trans (V3_v27 m ρ c _)
  · exact (ablk5 (V3 m ρ) c t 0 q).trans (V3_v32 m ρ c q)

/-- Every row of the output array is in some point's block: row `i` in point `i / 5000`'s. -/
theorem cover6 (i : S50000x50.Idx) : ∃ t : Fin cfg1.N, (cfg1.win 6).flush t = true ∧ i ∈ ((cfg1.win 6).blk t).view.set := by
  have h0 : (i 0).val < 50000 := (i 0).isLt
  have h1 : (i 1).val < 50 := (i 1).isLt
  obtain ⟨t, ht⟩ : ∃ t : Fin cfg1.N, t.val = (i 0).val / 5000 :=
    ⟨⟨(i 0).val / 5000, by rw [show cfg1.N = 10 from N_1]; omega⟩, rfl⟩
  refine ⟨t, flush1_6 t, ?_⟩
  show i ∈ ((View.whole main_v39).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    rw [(idx1 t).2.2.2.2.2.2.2.2.2.2.2.2.1]; omega
  | ⟨1, _⟩ =>
    show win1_6.index t (1 : Fin 2) * 50 ≤ (i 1).val ∧ (i 1).val < win1_6.index t (1 : Fin 2) * 50 + 50
    rw [(idx1 t).2.2.2.2.2.2.2.2.2.2.2.2.2]; omega

/-- THE OUTPUT ARRAY after the atom kernel. -/
theorem final6 (c : Dev nD) : (dat1 (V3 m ρ) c).arrAt 6 cfg1.N = atomOf m c :=
  (dat1 (V3 m ρ) c).arrAt_eq_of_cover 6 (atomOf m c) (fun t _ => flushed6 m ρ c t) cover6

end Cert.KernelIdeal.Blocks1

end
-- ==== Proof.KRun.lean ====
/-
  The idealized kernel's run, with its two results named.

  Every weakly fair execution of the program ends, faults nowhere, leaves the sixteen arguments as they were, and leaves
  in the first result the atom-output array — of the arguments and of the per-atom sums of the hidden-value array — and in
  the second the pair-output array. The run is the chain host operations, pair kernel, host operations, atom kernel; the
  contents of every buffer at the end are the fold of that chain over the launch memory, in which the second result is
  what the pair kernel's write-backs left (nothing later writes it) and the first what the atom kernel's left.
-/
import proofs.«159960_j61830349193917_2_alg».proof.Proof.KBlocks1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PairAtom Cert.KernelIdeal.Blocks0 Cert.KernelIdeal.Blocks1

local notation "𝕄" => MT nD τ sig Unit (Elt Ideal) ℕ (UR sig nD τ) ℕ

variable (m : (ℓ : Loc nD τ sig) → Buf (Elt Ideal) ℓ) (ρ : Dev nD → PrngReg)

/-- The first result at the end: what the atom kernel's write-backs left. -/
theorem W4_v39 (c : Dev nD) : W4 m ρ c (Proc.devRef .tc main_v39) = atomOf m c :=
  (W4_arr m ρ c 6).trans (final6 m ρ c)

/-- The second result at the end: what the pair kernel's write-backs left, untouched since. -/
theorem W4_v34_0 (c : Dev nD) : W4 m ρ c (Proc.devRef .tc main_v34_0) = pairOf m c :=
  calc W4 m ρ c (Proc.devRef .tc main_v34_0)
    _ = W3 m ρ c (Proc.devRef .tc main_v34_0) := W4_of_ne m ρ c main_v34_0 (by decide)
    _ = W2 m ρ c (Proc.devRef .tc main_v34_0) := by dsimp only [W3, hostOps1]; after_results_simp
    _ = (dat0 (V1 m ρ) c).arrAt 12 cfg0.N := W2_arr m ρ c 12
    _ = pairOf m c := final12 m ρ c

set_option backward.isDefEq.respectTransparency.types false in
/-- THE RUN: both results named, the arguments unchanged. -/
theorem run : θ_run defs (onTc (τ := τ) (main (F := Ideal))) ⟨m, fun _ => 0, ρ⟩ (fun r => ∀ c : Dev nD,
      r.2.mem ((c.tc : Thread nD τ).loc main_v39) = atomOf m c
      ∧ r.2.mem ((c.tc : Thread nD τ).loc main_v34_0) = pairOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v39 (by decide))).trans (W4_v39 m ρ c),
       (h c _ (mem_uc main_v34_0 (by decide))).trans (W4_v34_0 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.Run

end
-- ==== Proof.RefValue.lean ====
/-
  The reference's three arrays are the layer's arrays.

  Each dense layer of the reference — a product with a weight matrix, the bias vector laid out as a row and spread down
  the rows, the larger of that and zero — is, at (r, c), the unit over row r of its input against column c of its
  weights. Where the input is two arrays joined side by side, the sum over the joined columns is the sum over the left
  array's columns plus the sum over the right's. The endpoint features come as one gather of the atom table at both
  columns of the endpoint table, giving for each pair a 2 × 75 slab; flattening a slab to 150 numbers puts endpoint 0's
  features first, and reversing the slab along its axis of two before flattening puts endpoint 1's first. The per-atom
  sums stay the host's sum of the hidden-value array, unopened.
-/
import proofs.«159960_j61830349193917_2_alg».proof.Proof.Gen.ReferenceIdeal.Read
import proofs.«159960_j61830349193917_2_alg».proof.Proof.Units
import proofs.«159960_j61830349193917_2_alg».proof.Proof.LibRowGather
import proofs.«159960_j61830349193917_2_alg».proof.Proof.LibBroadcast

set_option maxRecDepth 16384

noncomputable section

namespace Cert.ReferenceIdeal.RefValue

open Cert.ReferenceIdeal Cert.ReferenceIdeal.Read Idealize.ShloMosaic Idealize.ShloMosaic.ValueIdx Cert.PairAtom
open Cert.ReferenceIdeal.Facts₀

/-! ## A dense layer on the host, read at an entry -/

theorem host_dense_apply {R K : Nat} (x : FVec Ideal ⟨2, ![R, K]⟩ .f32) (W : FVec Ideal ⟨2, ![K, 50]⟩ .f32) (b : FVec Ideal ⟨1, ![50]⟩ .f32)
    (h1 : (⟨1, ![50]⟩ : Shape).BroadcastsInDim ⟨2, ![1, 50]⟩ ![1])
    (h2 : (⟨2, ![1, 50]⟩ : Shape).BroadcastsInDim ⟨2, ![R, 50]⟩ ![0, 1])
    (hz : (⟨0, ![]⟩ : Shape).BroadcastsInDim ⟨2, ![R, 50]⟩ ![]) (r : Fin R) (c : Fin 50) :
    maximumf (addf (Host.dotGeneral (DotDims.plain R K 50) none x W)
        (broadcastInDim ⟨2, ![R, 50]⟩ ![0, 1] h2 (broadcastInDim ⟨2, ![1, 50]⟩ ![1] h1 b)))
        (broadcastInDim ⟨2, ![R, 50]⟩ ![] hz (constant (F := Ideal) ⟨0, ![]⟩ .f32 0x00000000#32)) (ix2 r c)
      = unit (fun k : Fin K => x (ix2 r k)) (fun k : Fin K => W (ix2 k c)) (b (ix1 c)) := by
  show max (FloatOps.dotGeneral (DotDims.plain R K 50) none .single x W (ix2 r c)
      + broadcastInDim ⟨2, ![R, 50]⟩ ![0, 1] h2 (broadcastInDim ⟨2, ![1, 50]⟩ ![1] h1 b) (ix2 r c)) (Ideal.ofBits .f32 0x00000000#32) = _
  rw [Cert.MatProd.dotGeneral_plain_apply, Cert.Layout.rows_of_vec_apply, Ideal.ofBits_zero_f32]
  rfl

/-- The products' dimension numbers are those of the plain product. -/
theorem dotA : dot_S50000x75_S75x50_S50000x50_1_0_0_1_n_n = DotDims.plain 50000 75 50 := rfl
theorem dotP14 : dot_S1000000x14_S14x50_S1000000x50_1_0_0_1_n_n = DotDims.plain 1000000 14 50 := rfl
theorem dotA100 : dot_S50000x100_S100x50_S50000x50_1_0_0_1_n_n = DotDims.plain 50000 100 50 := rfl
theorem dotP150 : dot_S1000000x150_S150x50_S1000000x50_1_0_0_1_n_n = DotDims.plain 1000000 150 50 := rfl
theorem dotP100 : dot_S1000000x100_S100x50_S1000000x50_1_0_0_1_n_n = DotDims.plain 1000000 100 50 := rfl

/-! ## The hidden-value array -/

theorem hidden_apply (x1 : FVec Ideal S1000000x14 .f32) (x6 : FVec Ideal S14x50 .f32) (x7 : FVec Ideal S50 .f32) (r : Fin 1000000) (c : Fin 50) :
    val_main_v9 (F := Ideal) x1 x6 x7 (ix2 r c) = dense x1 x6 x7 r c := by
  unfold val_main_v9 val_main_v8 val_main_v5 val_main_v7 val_main_v6 val_main_call1_v0 val_main_call1_cst
  rw [dotP14]
  exact host_dense_apply x1 x6 x7 _ _ _ r c

theorem hidden_eq (x1 : FVec Ideal S1000000x14 .f32) (x6 : FVec Ideal S14x50 .f32) (x7 : FVec Ideal S50 .f32) :
    val_main_v9 (F := Ideal) x1 x6 x7 = hiddenArr x1 x6 x7 := by
  funext i
  obtain ⟨r, c, rfl⟩ : ∃ (r : Fin 1000000) (c : Fin 50), i = ix2 r c := ⟨i 0, i 1, eq_ix2 i⟩
  exact hidden_apply x1 x6 x7 r c

/-! ## The atom outputs -/

theorem atomUnit_apply (x0 : FVec Ideal S50000x75 .f32) (x4 : FVec Ideal S75x50 .f32) (x5 : FVec Ideal S50 .f32) (n : Fin 50000) (c : Fin 50) :
    val_main_v4 (F := Ideal) x0 x4 x5 (ix2 n c) = dense x0 x4 x5 n c := by
  unfold val_main_v4 val_main_v3 val_main_v0 val_main_v2 val_main_v1 val_main_call0_v0 val_main_call0_cst
  rw [dotA]
  exact host_dense_apply x0 x4 x5 _ _ _ n c

theorem atom_eq (x0 : FVec Ideal S50000x75 .f32) (x1 : FVec Ideal S1000000x14 .f32) (x2 : IVec S1000000 32) (x4 : FVec Ideal S75x50 .f32)
    (x5 : FVec Ideal S50 .f32) (x6 : FVec Ideal S14x50 .f32) (x7 : FVec Ideal S50 .f32) (x8 : FVec Ideal S100x50 .f32) (x9 : FVec Ideal S50 .f32) :
    val_main_v18 (F := Ideal) x0 x1 x2 x4 x5 x6 x7 x8 x9 = atomArr x0 (val_main_v12 (F := Ideal) x1 x2 x6 x7) x4 x5 x8 x9 := by
  funext i
  obtain ⟨n, c, rfl⟩ : ∃ (n : Fin 50000) (c : Fin 50), i = ix2 n c := ⟨i 0, i 1, eq_ix2 i⟩
  unfold val_main_v18 val_main_v17 val_main_v14 val_main_v13 val_main_v16 val_main_v15 val_main_call2_v0 val_main_call2_cst
  rw [dotA100]
  refine (host_dense_apply _ x8 x9 _ _ _ n c).trans ?_
  rw [unit_joined (A := 50) (B := 50) (N := 100) rfl]
  show _ = atomOut x0 (val_main_v12 (F := Ideal) x1 x2 x6 x7) x4 x5 x8 x9 n c
  unfold atomOut
  refine congrArg₂ (fun f g => unit2 f g _ _ _) (funext fun k => ?_) (funext fun k => ?_)
  · exact (side_left (A := 50) (B := 50) (C := 100) rfl _ _ _ n k).trans (atomUnit_apply x0 x4 x5 n k)
  · exact side_right (A := 50) (B := 50) (C := 100) rfl _ _ _ n k

/-! ## Endpoint features -/

theorem gather_eq : gather_S50000x75_S1000000x2x1_S1000000x2x75_2_0_n_n_0_2_175
    = Cert.RowGather.dims3 50000 75 1000000 2 Facts₀.gather_S50000x75_S1000000x2x1_S1000000x2x75_2_0_n_n_0_2_175_wf := rfl

/-- The gathered slab at (r, e, j): feature `j` of endpoint `e` of pair `r`. -/
theorem slab_apply (x0 : FVec Ideal S50000x75 .f32) (x3 : IVec S1000000x2 32) (r : Fin 1000000) (e : Fin 2) (j : Fin 75) :
    val_main_v25 (F := Ideal) x0 x3 (ix3 r e j) = endpoint x0 x3 r e j := by
  unfold val_main_v25
  rw [gather_eq, Cert.RowGather.rows3_apply (by decide)]
  have hidx : val_main_v24 (F := Ideal) x3 (ix3 r e (0 : Fin 1)) = wrap (x3 (ix2 r e)) := by
    unfold val_main_v24
    refine (broadcastInDim_apply _ bcast_S1000000x2_S1000000x2x1_0_1 _ (ix3 r e (0 : Fin 1)) (ix2 r e) (fun a => ?_)).trans rfl
    match a with
    | ⟨0, _⟩ => show r.val = if (1000000 : Nat) = 1 then 0 else r.val; rw [if_neg (by decide)]
    | ⟨1, _⟩ => show e.val = if (2 : Nat) = 1 then 0 else e.val; rw [if_neg (by decide)]
  show x0 (ix2 (⟨min (val_main_v24 (F := Ideal) x3 (ix3 r e (0 : Fin 1))).toInt.toNat (50000 - 1), _⟩ : Fin 50000) j) = x0 (ix2 (row (x3 (ix2 r e))) j)
  refine congrArg x0 (congrArg (fun t : Fin 50000 => ix2 t j) (Fin.ext ?_))
  show min (val_main_v24 (F := Ideal) x3 (ix3 r e (0 : Fin 1))).toInt.toNat (50000 - 1) = min (wrap (x3 (ix2 r e))).toInt.toNat (50000 - 1)
  rw [hidx]

/-- A slab flattened: the first 75 places are its row 0, the last 75 its row 1. -/
theorem flat_left (y : S1000000x2x75.Idx → EReal) (r : Fin 1000000) (j : Fin 75) :
    shapeCast S1000000x150 y shapeCasts_S1000000x2x75_S1000000x150 (ix2 r (⟨j.val, by omega⟩ : Fin 150)) = y (ix3 r (0 : Fin 2) j) :=
  shapeCast_apply y shapeCasts_S1000000x2x75_S1000000x150 _ _ (by
    rw [Shape.rowMajor_val_three, Shape.rowMajor_val_two]
    show (r.val * 2 + 0) * 75 + j.val = r.val * 150 + j.val; omega)

theorem flat_right (y : S1000000x2x75.Idx → EReal) (r : Fin 1000000) (j : Fin 75) :
    shapeCast S1000000x150 y shapeCasts_S1000000x2x75_S1000000x150 (ix2 r (⟨75 + j.val, by omega⟩ : Fin 150)) = y (ix3 r (1 : Fin 2) j) :=
  shapeCast_apply y shapeCasts_S1000000x2x75_S1000000x150 _ _ (by
    rw [Shape.rowMajor_val_three, Shape.rowMajor_val_two]
    show (r.val * 2 + 1) * 75 + j.val = r.val * 150 + (75 + j.val); omega)

/-- A slab reversed along its axis of two: row `e` is the other row. -/
theorem reversed0 (y : S1000000x2x75.Idx → EReal) (r : Fin 1000000) (j : Fin 75) :
    Host.reverse [1] y (ix3 r (0 : Fin 2) j) = y (ix3 r (1 : Fin 2) j) := by
  unfold Host.reverse
  refine congrArg y (funext fun a => ?_)
  match a with
  | ⟨0, _⟩ => rfl
  | ⟨1, _⟩ => rfl
  | ⟨2, _⟩ => rfl

theorem reversed1 (y : S1000000x2x75.Idx → EReal) (r : Fin 1000000) (j : Fin 75) :
    Host.reverse [1] y (ix3 r (1 : Fin 2) j) = y (ix3 r (0 : Fin 2) j) := by
  unfold Host.reverse
  refine congrArg y (funext fun a => ?_)
  match a with
  | ⟨0, _⟩ => rfl
  | ⟨1, _⟩ => rfl
  | ⟨2, _⟩ => rfl

/-- The endpoint unit in the order (endpoint 0, endpoint 1). -/
theorem ends01_apply (x0 : FVec Ideal S50000x75 .f32) (x3 : IVec S1000000x2 32) (x10 : FVec Ideal S150x50 .f32) (x11 : FVec Ideal S50 .f32)
    (r : Fin 1000000) (k : Fin 50) :
    val_main_v31 (F := Ideal) x0 x3 x10 x11 (ix2 r k) = ends (endpoint x0 x3 r 0) (endpoint x0 x3 r 1) x10 x11 k := by
  unfold val_main_v31 val_main_v30 val_main_v27 val_main_v29 val_main_v28 val_main_call3_v0 val_main_call3_cst
  rw [dotP150]
  refine (host_dense_apply _ x10 x11 _ _ _ r k).trans ?_
  rw [unit_joined (A := 75) (B := 75) (N := 150) rfl]
  unfold ends
  refine congrArg₂ (fun f g => unit2 f g _ _ _) (funext fun j => ?_) (funext fun j => ?_)
  · unfold val_main_v26
    exact (flat_left _ r j).trans (slab_apply x0 x3 r 0 j)
  · unfold val_main_v26
    exact (flat_right _ r j).trans (slab_apply x0 x3 r 1 j)

/-- The endpoint unit in the order (endpoint 1, endpoint 0). -/
theorem ends10_apply (x0 : FVec Ideal S50000x75 .f32) (x3 : IVec S1000000x2 32) (x10 : FVec Ideal S150x50 .f32) (x11 : FVec Ideal S50 .f32)
    (r : Fin 1000000) (k : Fin 50) :
    val_main_v38 (F := Ideal) x0 x3 x10 x11 (ix2 r k) = ends (endpoint x0 x3 r 1) (endpoint x0 x3 r 0) x10 x11 k := by
  unfold val_main_v38 val_main_v37 val_main_v34 val_main_v36 val_main_v35 val_main_call4_v0 val_main_call4_cst
  rw [dotP150]
  refine (host_dense_apply _ x10 x11 _ _ _ r k).trans ?_
  rw [unit_joined (A := 75) (B := 75) (N := 150) rfl]
  unfold ends
  refine congrArg₂ (fun f g => unit2 f g _ _ _) (funext fun j => ?_) (funext fun j => ?_)
  · unfold val_main_v33 val_main_v32
    exact ((flat_left _ r j).trans (reversed0 _ r j)).trans (slab_apply x0 x3 r 1 j)
  · unfold val_main_v33 val_main_v32
    exact ((flat_right _ r j).trans (reversed1 _ r j)).trans (slab_apply x0 x3 r 0 j)

/-- The pair unit. -/
theorem pairUnit_apply (x1 : FVec Ideal S1000000x14 .f32) (x12 : FVec Ideal S14x50 .f32) (x13 : FVec Ideal S50 .f32) (r : Fin 1000000) (k : Fin 50) :
    val_main_v43 (F := Ideal) x1 x12 x13 (ix2 r k) = dense x1 x12 x13 r k := by
  unfold val_main_v43 val_main_v42 val_main_v39 val_main_v41 val_main_v40 val_main_call5_v0 val_main_call5_cst
  rw [dotP14]
  exact host_dense_apply x1 x12 x13 _ _ _ r k

/-! ## The pair outputs -/

theorem pair_eq (x0 : FVec Ideal S50000x75 .f32) (x1 : FVec Ideal S1000000x14 .f32) (x3 : IVec S1000000x2 32) (x10 : FVec Ideal S150x50 .f32)
    (x11 : FVec Ideal S50 .f32) (x12 : FVec Ideal S14x50 .f32) (x13 : FVec Ideal S50 .f32) (x14 : FVec Ideal S100x50 .f32) (x15 : FVec Ideal S50 .f32) :
    val_main_v50 (F := Ideal) x0 x1 x3 x10 x11 x12 x13 x14 x15 = pairArr x0 x1 x3 x10 x11 x12 x13 x14 x15 := by
  funext i
  obtain ⟨r, c, rfl⟩ : ∃ (r : Fin 1000000) (c : Fin 50), i = ix2 r c := ⟨i 0, i 1, eq_ix2 i⟩
  unfold val_main_v50 val_main_v49 val_main_v46 val_main_v45 val_main_v48 val_main_v47 val_main_call6_v0 val_main_call6_cst
  rw [dotP100]
  refine (host_dense_apply _ x14 x15 _ _ _ r c).trans ?_
  rw [unit_joined (A := 50) (B := 50) (N := 100) rfl]
  show _ = pairOut x0 x1 x3 x10 x11 x12 x13 x14 x15 r c
  unfold pairOut
  refine congrArg₂ (fun f g => unit2 f g _ _ _) (funext fun k => ?_) (funext fun k => ?_)
  · refine (side_left (A := 50) (B := 50) (C := 100) rfl _ _ _ r k).trans ?_
    unfold val_main_v44
    exact congrArg₂ (fun a b : EReal => a + b) (ends01_apply x0 x3 x10 x11 r k) (ends10_apply x0 x3 x10 x11 r k)
  · exact (side_right (A := 50) (B := 50) (C := 100) rfl _ _ _ r k).trans (pairUnit_apply x1 x12 x13 r k)

end Cert.ReferenceIdeal.RefValue

end
-- ==== Proof.lean ====
/-
  The kernel and its reference compute one layer: from atom features, pair features, a segment array naming each
  pair's anchor atom and an endpoint table naming each pair's two atoms, a new array of atom features and a new array
  of pair features, every hidden unit a rectified affine form.

  On the extended reals the two programs differ only in how sums are arranged. The reference multiplies each pair's two
  endpoint rows, joined into 150 numbers, by a 150-row weight matrix; the kernel multiplies the first endpoint's row by
  the matrix's upper 75 rows and the second's by its lower 75 and adds: a finite sum over the joined range is the sum
  over its first part plus the sum over its second, with nothing asked of the terms (no finiteness is used anywhere:
  only that addition is associative and commutative). The same holds for the two output layers, whose 100 inputs are two
  arrays of 50 side by side. The endpoint rows are the same rows of the atom table: the reference gathers at both columns
  of the endpoint table at once and flattens (or reverses, then flattens) each pair's 2 × 75 slab; the kernel gathers
  at each column separately. The per-atom sums of the pair-to-atom hidden values are, in both programs, the same host
  sum applied to the hidden-value array, so it is enough that the two hidden-value arrays agree. Changes of float format
  are the identity, and the kernel's tiling into 200 and 10 blocks of 5000 rows reassembles each output array whole.

  The claim states the conjunct relating the word-level kernel to its idealization as `True` (the idealization rewrote no
  operation of it), so that conjunct is trivial; the three frames are the generated ones, the reference's being its
  generated run with the results dropped.
-/
import proofs.«159960_j61830349193917_2_alg».proof.Defs
import proofs.«159960_j61830349193917_2_alg».proof.Proof.Gen.Kernel
import proofs.«159960_j61830349193917_2_alg».proof.Proof.Gen.Kernel.Skeleton
import proofs.«159960_j61830349193917_2_alg».proof.Proof.Gen.Kernel.Launch
import proofs.«159960_j61830349193917_2_alg».proof.Proof.Gen.Kernel.Points
import proofs.«159960_j61830349193917_2_alg».proof.Proof.Gen.Kernel.Frame
import proofs.«159960_j61830349193917_2_alg».proof.Proof.Gen.KernelIdeal
import proofs.«159960_j61830349193917_2_alg».proof.Proof.Gen.KernelIdeal.Skeleton
import proofs.«159960_j61830349193917_2_alg».proof.Proof.Gen.KernelIdeal.Launch
import proofs.«159960_j61830349193917_2_alg».proof.Proof.Gen.KernelIdeal.Points
import proofs.«159960_j61830349193917_2_alg».proof.Proof.Gen.KernelIdeal.Frame
import proofs.«159960_j61830349193917_2_alg».proof.Proof.Gen.ReferenceIdeal
import proofs.«159960_j61830349193917_2_alg».proof.Proof.Gen.Pre_finite_inputs
import proofs.«159960_j61830349193917_2_alg».proof.Proof.Gen.ReferenceIdeal.Run
import proofs.«159960_j61830349193917_2_alg».proof.Proof.Gen.ReferenceIdeal.Read
import proofs.«159960_j61830349193917_2_alg».proof.Proof.KRun
import proofs.«159960_j61830349193917_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.PairAtom

/-! ## The frames -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-! ## The per-atom sums agree -/

/-- The two programs' per-atom sums are the same host sum of the same hidden-value array. -/
theorem sums_eq (m : (ℓ : Loc Cert.KernelIdeal.nD Cert.KernelIdeal.τ Cert.KernelIdeal.sig) → Buf (Elt Ideal) ℓ) (c : Dev Cert.KernelIdeal.nD) :
    Cert.ReferenceIdeal.Read.val_main_v12 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg6)) (m ((c : Thread Cert.KernelIdeal.nD Cert.KernelIdeal.τ).loc Cert.KernelIdeal.main_arg7)) = Cert.KernelIdeal.Host1.sumsOf m c := by
  unfold Cert.ReferenceIdeal.Read.val_main_v12 Cert.KernelIdeal.Host1.sumsOf
  rw [Cert.ReferenceIdeal.RefValue.hidden_eq]
  rfl

/-! ## The two programs end with equal results -/

theorem algebraic : Cert.algebraic_KernelIdeal_ReferenceIdeal := by
  intro m ρ m' ρ' _ hagree
  refine ⟨fun c => Cert.KernelIdeal.Blocks1.atomOf m c, fun c => Cert.KernelIdeal.Blocks0.pairOf m c, Cert.KernelIdeal.Run.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13, a14, a15⟩ := hagree c
    refine (h c).1.trans ((Cert.ReferenceIdeal.Read.val_main_v18_eq _ _ _ _ _ _ _ _ _).trans ?_)
    rw [Cert.ReferenceIdeal.RefValue.atom_eq, a0, a1, a2, a4, a5, a6, a7, a8, a9, sums_eq m c]
  · obtain ⟨a0, a1, a2, a3, a4, a5, a6, a7, a8, a9, a10, a11, a12, a13, a14, a15⟩ := hagree c
    refine (h c).2.1.trans ((Cert.ReferenceIdeal.Read.val_main_v50_eq _ _ _ _ _ _ _ _ _).trans ?_)
    rw [Cert.ReferenceIdeal.RefValue.pair_eq, a0, a1, a3, a10, a11, a12, a13, a14, a15]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
